-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S2048x256 : Shape := ⟨2, ![2048, 256]⟩
abbrev S256x2048 : Shape := ⟨2, ![256, 2048]⟩
abbrev S1024x2048 : Shape := ⟨2, ![1024, 2048]⟩
abbrev S1024 : Shape := ⟨1, ![1024]⟩
abbrev S4096 : Shape := ⟨1, ![4096]⟩

abbrev nBuf : Space → Nat
  | .hbm => 33
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192x1, .f32⟩
  | .hbm, ⟨15, _⟩ => ⟨S8192, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond4 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S2048x256_p1_0_S256x2048 : S2048x256.Transposes [1, 0] S256x2048
  iota_S1024x2048_d0_w32 : S1024x2048.Iotas .tc 32 [0]
  iota_S1024x2048_d1_w32 : S1024x2048.Iotas .tc 32 [1]
  reduces_S1024x2048_S1024 : S1024x2048.Reduces [1] S1024
  shapeCasts_S1024_S1024x1 : S1024.ShapeCasts S1024x1
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x256_S256x2048_S1024x2048_1_0_0_1_n_n_wf : DotDims.WF S1024x256 S256x2048 S1024x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 90
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S4096, .f32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1, .i32⟩
  | .hbm, ⟨59, _⟩ => ⟨S4096x2, .i32⟩
  | .hbm, ⟨60, _⟩ => ⟨S4096, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192, .f32⟩
  | .hbm, ⟨66, _⟩ => ⟨S8192x8192, .i32⟩
  | .hbm, ⟨67, _⟩ => ⟨S8192x8192, .i32⟩
  | .hbm, ⟨68, _⟩ => ⟨S_, .i32⟩
  | .hbm, ⟨69, _⟩ => ⟨S8192x8192, .i32⟩
  | .hbm, ⟨70, _⟩ => ⟨S8192x8192, .i32⟩
  | .hbm, ⟨71, _⟩ => ⟨S8192x8192, .i1⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_c : Ref sig .tc := ⟨.hbm, 17, rfl⟩
abbrev main_call1_v2 : Ref sig .tc := ⟨.hbm, 18, rfl⟩
abbrev main_call1_v3 : Ref sig .tc := ⟨.hbm, 19, rfl⟩
abbrev main_call1_c_0 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c_2 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_v15 : Ref sig .tc := ⟨.hbm, 35, rfl⟩
abbrev main_call1_v16 : Ref sig .tc := ⟨.hbm, 36, rfl⟩
abbrev main_v8 : Ref sig .tc := ⟨.hbm, 37, rfl⟩
abbrev main_call2_v0 : Ref sig .tc := ⟨.hbm, 38, rfl⟩
abbrev main_call2_v1 : Ref sig .tc := ⟨.hbm, 39, rfl⟩
abbrev main_call2_c : Ref sig .tc := ⟨.hbm, 40, rfl⟩
abbrev main_call2_v2 : Ref sig .tc := ⟨.hbm, 41, rfl⟩
abbrev main_call2_v3 : Ref sig .tc := ⟨.hbm, 42, rfl⟩
abbrev main_call2_c_0 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c_2 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v9 : Ref sig .tc := ⟨.hbm, 60, rfl⟩
abbrev main_v10 : Ref sig .tc := ⟨.hbm, 61, rfl⟩
abbrev main_cst_0 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_c : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_1 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_cst_2 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst_3 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_4 : Ref sig .tc := ⟨.hbm, 86, rfl⟩
abbrev main_v30 : Ref sig .tc := ⟨.hbm, 87, rfl⟩
abbrev main_cst_5 : Ref sig .tc := ⟨.hbm, 88, rfl⟩
abbrev main_v31 : Ref sig .tc := ⟨.hbm, 89, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.LibWholeStore.lean ====
/-
  Whole-buffer stores and loads.

  A rectangle at offset zero whose extent is the whole shape is the whole index set. So a store through it,
  made last, leaves exactly its payload whatever the buffer held and whatever was stored before; and a load
  through it reads the contents as they are.
-/
import Idealize.ShloMosaic.Lib.Pipeline.FrameBody
import Idealize.ShloMosaic.Lib.Pipeline.Value

noncomputable section

namespace Idealize.ShloMosaic.View

open Idealize.ShloMosaic

variable {sig : RefSig} {κ : Kind} {sp : Space} {S : Shape} {e : EltTy} {Val : EltTy → Type} [∀ e, Nonempty (Val e)]

/-- Every index lies in the rectangle at offset zero of full extent. -/
theorem mem_unit_zero_full {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- A store of the whole buffer, made last, leaves its payload. -/
theorem read_writes_cons_unit_zero (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.mem_cons_self, mem_unit_zero_full h inb y⟩), canon_cons_unit_zero h inb w L]

/-- A load of the whole buffer reads its contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld, ld_unit_zero h inb]

end Idealize.ShloMosaic.View

end
-- ==== Proof.Kernel.Body.lean ====
import proofs.«110532_j65867618451797_2_alg».proof.Proof.Gen.Kernel.Launch
import proofs.«110532_j65867618451797_2_alg».proof.Proof.Gen.Kernel.Skeleton
import proofs.«110532_j65867618451797_2_alg».proof.Proof.Gen.Kernel.Points
import Idealize.ShloMosaic.Lib.Pipeline.FrameBody
import Idealize.ShloMosaic.Lib.Tactic
import proofs.«110532_j65867618451797_2_alg».proof.Proof.LibWholeStore

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the tile of rows [1024·i₀, 1024·i₀+1024) and columns [2048·i₁, 2048·i₁+2048) can meet the diagonal, as the body computes it. -/
abbrev tile (i : grid0.Coords) : BitVec 1 :=
  Scalar.andi
    (Scalar.cmpi .slt (Scalar.muli (BitVec.ofNat 32 (i 0).val) 1024#32) (Scalar.addi (Scalar.muli (BitVec.ofNat 32 (i 1).val) 2048#32) 2048#32))
    (Scalar.cmpi .sgt (Scalar.addi (Scalar.muli (BitVec.ofNat 32 (i 0).val) 1024#32) 1024#32) (Scalar.muli (BitVec.ofNat 32 (i 1).val) 2048#32))
/-- The four branch conditions of the body, from the grid coordinates. -/
abbrev cond1 (i : grid0.Coords) : Prop := (Scalar.cmpi .ne (Scalar.extui (Scalar.cmpi .eq (BitVec.ofNat 32 (i 1).val) 0#32) : BitVec 32) 0#32) = 1#1
abbrev cond2 (i : grid0.Coords) : Prop := (Scalar.cmpi .ne (Scalar.extui (tile i) : BitVec 32) 0#32) = 1#1
abbrev cond3 (i : grid0.Coords) : Prop := (Scalar.cmpi .ne (Scalar.extui (Scalar.xori (tile i) 1#1) : BitVec 32) 0#32) = 1#1
abbrev cond4 (i : grid0.Coords) : Prop := k0_cond4 i = 1#1

/-- The two-axis offset written with literals is the zero offset. -/
theorem hz2 : (![0, 0] : Fin 2 → ℕ) = fun _ => 0 := by funext a; fin_cases a <;> rfl

/-- The block of 2048 rows of the resident matrix that the body loads at point `i`: rows 2048·i₁ … 2048·i₁ + 2047. -/
def kblk (i : grid0.Coords) (x3 : Vec F S8192x256 .bf16) : Vec F S2048x256 .bf16 :=
  View.ld x3 (Rect.unit (s := S8192x256) (k0_off1 i) S2048x256.size (k0_off1_inb i))

/-- The accumulator the point works on: zero on the first column tile of a row tile, else what the point before left. -/
def accIn (i : grid0.Coords) (xs : Vec F S1024x1 .f32) : Vec F S1024x1 .f32 :=
  if cond1 i then k0_pay1 else xs

/-- The accumulator the point leaves: the entering one plus the row sums of exp(2·s) over the tile, the diagonal
    entries of s put to zero first where the tile can meet the diagonal. -/
def accOut (i : grid0.Coords) (x2 : Vec F S1024x256 .bf16) (x3 : Vec F S8192x256 .bf16) (xs : Vec F S1024x1 .f32) : Vec F S1024x1 .f32 :=
  if cond2 i then k0_pay3 i (kblk i x3) x2 (accIn i xs) else k0_pay4 (kblk i x3) x2 (accIn i xs)

/-- The output block the point leaves: the accumulator on the last column tile, else what it held. -/
def outOut (i : grid0.Coords) (x2 : Vec F S1024x256 .bf16) (x3 : Vec F S8192x256 .bf16) (xo4 xs : Vec F S1024x1 .f32) : Vec F S1024x1 .f32 :=
  if cond4 i then accOut i x2 x3 xs else xo4

/-- The combinations of the four branch conditions that the grid meets. -/
abbrev Cases (i : grid0.Coords) : Prop :=
  (cond1 i ∧ cond2 i ∧ ¬ cond3 i ∧ ¬ cond4 i)
  ∨ (cond1 i ∧ ¬ cond2 i ∧ cond3 i ∧ ¬ cond4 i)
  ∨ (¬ cond1 i ∧ cond2 i ∧ ¬ cond3 i ∧ ¬ cond4 i)
  ∨ (¬ cond1 i ∧ ¬ cond2 i ∧ cond3 i ∧ ¬ cond4 i)
  ∨ (¬ cond1 i ∧ cond2 i ∧ ¬ cond3 i ∧ cond4 i)
  ∨ (¬ cond1 i ∧ ¬ cond2 i ∧ cond3 i ∧ cond4 i)

set_option maxHeartbeats 1000000 in
/-- The body at a point where the accumulator is reset, the tile can meet the diagonal, and the output is left alone. -/
theorem run_A (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : cond1 i) (hc2 : cond2 i) (hc3 : ¬ cond3 i) (hc4 : ¬ cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_neg hc4]

  iexists _; isplitr; swap; (· iexact H5)
  ipureintro
  sl_unfold_words
  unfold accOut accIn; rw [if_pos hc2, if_pos hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is reset, the tile cannot meet the diagonal, and the output is left alone. -/
theorem run_B (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : cond1 i) (hc2 : ¬ cond2 i) (hc3 : cond3 i) (hc4 : ¬ cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_neg hc4]

  iexists _; isplitr; swap; (· iexact H5)
  ipureintro
  sl_unfold_words
  unfold accOut accIn; rw [if_neg hc2, if_pos hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is carried, the tile can meet the diagonal, and the output is left alone. -/
theorem run_C (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : ¬ cond1 i) (hc2 : cond2 i) (hc3 : ¬ cond3 i) (hc4 : ¬ cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_neg hc4]

  iexists _; isplitr; swap; (· iexact H5)
  ipureintro
  sl_unfold_words
  unfold accOut accIn; rw [if_pos hc2, if_neg hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is carried, the tile cannot meet the diagonal, and the output is left alone. -/
theorem run_D (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : ¬ cond1 i) (hc2 : ¬ cond2 i) (hc3 : cond3 i) (hc4 : ¬ cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_neg hc4]

  iexists _; isplitr; swap; (· iexact H5)
  ipureintro
  sl_unfold_words
  unfold accOut accIn; rw [if_neg hc2, if_neg hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is carried, the tile can meet the diagonal, and the output is written. -/
theorem run_E (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : ¬ cond1 i) (hc2 : cond2 i) (hc3 : ¬ cond3 i) (hc4 : cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_pos hc4]
    unfold accOut accIn; rw [if_pos hc2, if_neg hc1]
    simp only [View.read_writes_cons_unit_zero (S := S1024x1) _ _ hz2, View.readCov_unit_zero (S := S1024x1) _ hz2, View.readAt_unit_zero (S := S1024x1) _ _ hz2, View.readAt_unit_zero (S := S1024x256) _ _ hz2]
    rfl
  iexists _; isplitr; swap; (· iexact H5)
  ipureintro
  sl_unfold_words
  unfold accOut accIn; rw [if_pos hc2, if_neg hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is carried, the tile cannot meet the diagonal, and the output is written. -/
theorem run_F (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : ¬ cond1 i) (hc2 : ¬ cond2 i) (hc3 : cond3 i) (hc4 : cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_pos hc4]
    unfold accOut accIn; rw [if_neg hc2, if_neg hc1]
    simp only [View.read_writes_cons_unit_zero (S := S1024x1) _ _ hz2, View.readCov_unit_zero (S := S1024x1) _ hz2, View.readAt_unit_zero (S := S1024x1) _ _ hz2, View.readAt_unit_zero (S := S1024x256) _ _ hz2]
    rfl
  iexists _; isplitr; swap; (· iexact H5)
  ipureintro
  sl_unfold_words
  unfold accOut accIn; rw [if_neg hc2, if_neg hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

/-- THE BODY at any point of the grid: from the two input blocks, the output block and the accumulator held whole, it
    runs to its return leaving the inputs as they were, the accumulator at `accOut` and the output block at `outOut`. -/
theorem kernelRun (c : Dev nD) (i : grid0.Coords) (hcase : Cases i)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  rcases hcase with ⟨h1, h2, h3, h4⟩ | ⟨h1, h2, h3, h4⟩ | ⟨h1, h2, h3, h4⟩ | ⟨h1, h2, h3, h4⟩ | ⟨h1, h2, h3, h4⟩ | ⟨h1, h2, h3, h4⟩
  · exact run_A c i arg2 harg2 arg3 harg3 arg4 harg4 arg5 harg5 h1 h2 h3 h4 x2 x3 xo4 xs E K
  · exact run_B c i arg2 harg2 arg3 harg3 arg4 harg4 arg5 harg5 h1 h2 h3 h4 x2 x3 xo4 xs E K
  · exact run_C c i arg2 harg2 arg3 harg3 arg4 harg4 arg5 harg5 h1 h2 h3 h4 x2 x3 xo4 xs E K
  · exact run_D c i arg2 harg2 arg3 harg3 arg4 harg4 arg5 harg5 h1 h2 h3 h4 x2 x3 xo4 xs E K
  · exact run_E c i arg2 harg2 arg3 harg3 arg4 harg4 arg5 harg5 h1 h2 h3 h4 x2 x3 xo4 xs E K
  · exact run_F c i arg2 harg2 arg3 harg3 arg4 harg4 arg5 harg5 h1 h2 h3 h4 x2 x3 xo4 xs E K

end Cert.Kernel.Body

end
-- ==== Proof.Kernel.Data.lean ====
import proofs.«110532_j65867618451797_2_alg».proof.Proof.Kernel.Body
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the twelve host operations before it have run
    (the concatenation, the row norms, the clamp, the quotient, the change of format). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host operations, the region, and the eighteen operations after it: it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

/-- The accumulator is reset on the first of the four column tiles of each row tile. -/
theorem hcond1 : ∀ t : Fin cfg0.N, cond1 (grid0.coords t) ↔ t.val % 4 = 0 :=
  (by decide +kernel : ∀ t : Fin grid0.N, cond1 (grid0.coords t) ↔ t.val % 4 = 0)
/-- The output block is written on the last of them. -/
theorem hcond4 : ∀ t : Fin cfg0.N, cond4 (grid0.coords t) ↔ t.val % 4 = 3 :=
  (by decide +kernel : ∀ t : Fin grid0.N, cond4 (grid0.coords t) ↔ t.val % 4 = 3)
/-- Every point is in one of the six combinations. -/
theorem cases_grid : ∀ t : Fin cfg0.N, Cases (grid0.coords t) :=
  (by decide +kernel : ∀ t : Fin grid0.N, Cases (grid0.coords t))
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cond4 (grid0.coords t) → cfg0.idle 2 (grid0.coords t) = false := by decide +kernel
theorem idleAt2 : ∀ t : Fin cfg0.N, ¬ cond4 (grid0.coords t) → cfg0.idle 2 (grid0.coords t) = true := by decide +kernel
theorem noFlush2 : ∀ t : Fin cfg0.N, ¬ cond4 (grid0.coords t) → (cfg0.win 2).flush t = false := by decide +kernel

/-! ## The staging memrefs and the scratch -/

abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S1024x1 .f32 := Memref.whole cc0_scratch0

/-- The region's plain invariant with the accumulator as a memref held at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator after each point -/

/-- THE ACCUMULATION. What the accumulator holds after the body at position `n`: the point's step applied to what the
    point before left (at a point that resets it, whatever that was). -/
def accAt (c : Dev nD) : (n : ℕ) → n < cfg0.N → Vec F S1024x1 .f32
  | 0, hn => accOut (grid0.coords ⟨0, hn⟩) (iblk m c 0 ⟨0, hn⟩) (iblk m c 1 ⟨0, hn⟩) k0_pay1
  | n + 1, hn => accOut (grid0.coords ⟨n + 1, hn⟩) (iblk m c 0 ⟨n + 1, hn⟩) (iblk m c 1 ⟨n + 1, hn⟩) (accAt c n (Nat.lt_of_succ_lt hn))

/-- Where the accumulator is reset, what it held does not matter. -/
theorem accOut_reset {i : grid0.Coords} (h : cond1 i) (x2 : Vec F S1024x256 .bf16) (x3 : Vec F S8192x256 .bf16) (xs xs' : Vec F S1024x1 .f32) :
    accOut i x2 x3 xs = accOut i x2 x3 xs' := by
  simp only [accOut, accIn, if_pos h]

/-- The point's step from contents that, unless the point resets them, are what the point before left, gives the
    accumulator after the point. -/
theorem accAt_eq (c : Dev nD) (t : Fin cfg0.N) (xs : Vec F S1024x1 .f32)
    (h : t.val % 4 ≠ 0 → xs = accAt m c (t.val - 1) (Nat.lt_of_le_of_lt (Nat.sub_le _ _) t.isLt)) :
    accOut (grid0.coords t) (iblk m c 0 t) (iblk m c 1 t) xs = accAt m c t.val t.isLt := by
  obtain ⟨n, hn⟩ := t
  cases n with
  | zero => exact accOut_reset ((hcond1 ⟨0, hn⟩).mpr (Nat.zero_mod _)) _ _ _ _
  | succ n =>
    by_cases h0 : (n + 1) % 4 = 0
    · exact accOut_reset ((hcond1 ⟨n + 1, hn⟩).mpr h0) _ _ _ _
    · rw [h h0]; rfl

/-- The region invariant before position `n`: before the first point the plain one; afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data on core `c`: the arrays as the region finds them; after the body at a point each input's buffer at
    its block and the output's at the accumulator; the invariant tracking the accumulator; nothing owed; the normalized
    matrix, which both input windows read, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- The body's run with the contents it leaves named by equations. -/
theorem kernelRun' (c : Dev nD) (i : grid0.Coords) (hcase : Cases i)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (x2 : Vec F S1024x256 .bf16) (x3 : Vec F S8192x256 .bf16) (xo4 xs A O : Vec F S1024x1 .f32)
    (e1 : accOut i x2 x3 xs = A) (e2 : outOut i x2 x3 xo4 xs = O)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare O
            ∗ owns (c : Thread nD τ) arg5 fullShare A) -∗ K ⟨⟩))
      ⊢ wp frame (wpE (defs₀ (F := F)) Variants.none c none) E (cc0__denom_kernel i arg2 harg2 arg3 harg3 arg4 harg4 arg5 harg5) K := by
  subst e1 e2
  exact kernelRun c i hcase arg2 harg2 arg3 harg3 arg4 harg4 arg5 harg5 x2 x3 xo4 xs E K

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 2000000 in
/-- The body at any point: the inputs' memrefs hold their blocks; the invariant hands the body the accumulator at what
    the point before left (at anything at the first point) and takes it back at this point's contents; the output's
    buffer is handed back as found except on the last column tile, where it takes the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  have hcase := cases_grid t
  have hN : t.val < 32 := lt_of_lt_of_eq t.isLt (show cfg0.N = 32 from N_0)
  by_cases h4 : cond4 (grid0.coords t)
  · have h43 : t.val % 4 = 3 := (hcond4 t).mp h4
    have hz : t.val ≠ 0 := by omega
    rw [show (dats m 0 c).leavesExact 2 t = owns (c : Thread nD τ) (ms2 t) fullShare ((dats m 0 c).after 2 t) from by
      unfold Dat.leavesExact; rw [liveAt2 t h4], after2]
    rw [PhiS_castSucc m c t, PhiS_pos m c _ _ hz]
    iintro ⟨⟨HS, Hg⟩, Ho, ⟨%d0, H0⟩, ⟨%d1, H1⟩, ⟨%d2, H2⟩⟩
    iapply (kernelRun' c (grid0.coords t) hcase (ms0 t) (hs0 t) (ms1 t) (hs1 t) (ms2 t) (hs2 t) scM (Memref.isWhole_whole _)
      (iblk m c 0 t) (iblk m c 1 t) ((dats m 0 c).before 2 t d2) _ (accAt m c t.val t.isLt) (accAt m c t.val t.isLt)
      (accAt_eq m c t _ (fun _ => rfl))
      (by unfold outOut; rw [if_pos h4]; exact accAt_eq m c t _ (fun _ => rfl)) Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 c) 2 t (idleAt2 t h4) (noFlush2 t h4)]
    by_cases hz : t.val = 0
    · rw [PhiS_castSucc m c t, PhiS_zero m c _ _ hz, PhiA_eq]
      iintro ⟨⟨⟨%ds, HS⟩, Hg⟩, Ho, ⟨%d0, H0⟩, ⟨%d1, H1⟩, ⟨%d2, H2⟩⟩
      iapply (kernelRun' c (grid0.coords t) hcase (ms0 t) (hs0 t) (ms1 t) (hs1 t) (ms2 t) (hs2 t) scM (Memref.isWhole_whole _)
        (iblk m c 0 t) (iblk m c 1 t) ((dats m 0 c).before 2 t d2) ds (accAt m c t.val t.isLt) ((dats m 0 c).before 2 t d2)
        (accAt_eq m c t _ (fun h => absurd (by rw [hz]) h))
        (by unfold outOut; rw [if_neg h4]) Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply (kernelRun' c (grid0.coords t) hcase (ms0 t) (hs0 t) (ms1 t) (hs1 t) (ms2 t) (hs2 t) scM (Memref.isWhole_whole _)
        (iblk m c 0 t) (iblk m c 1 t) ((dats m 0 c).before 2 t d2) _ (accAt m c t.val t.isLt) ((dats m 0 c).before 2 t d2)
        (accAt_eq m c t _ (fun _ => rfl))
        (by unfold outOut; rw [if_neg h4]) Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The body's obligation at every point of the grid: from the invariant and the staged blocks it runs to the next
    point's invariant and the blocks as the proof data name them. -/
theorem body_obligation (c : Dev nD) : BodyObligation (dats (F := F) m 0 c) (defs₀ (F := F)) Variants.none () Set.univ := fun t => by
  rw [bigSep_W0, bigSep_W0]
  exact sound_body m c t

/-- Before the first point the invariant is the plain one; -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- after the last it gives the plain one back, the accumulator's contents forgotten. -/
theorem hout (c : Dev nD) : (dats m 0 c).Φ (Fin.last cfg0.N) ⊢ Pipeline.ΦA spec0 c := by
  have hl : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨HS, Hg⟩
  isplitl [HS]
  · iexists _; iexact HS
  iexact Hg

end Cert.Kernel.Body

end
-- ==== Proof.Kernel.Run.lean ====
import proofs.«110532_j65867618451797_2_alg».proof.Proof.Kernel.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, which two input windows share -/

/-- The pipeline's arrays: the normalized matrix behind both input windows, one half share each, and the result. -/
theorem arrays_pts (c : Dev nD) (G : (w : Fin cfg0.W) → Buf (Elt F) ((cfg0.win w).arr.view.loc (c : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v7) ↦{fullShare} G 2)) := by
  unfold Dat.arrays
  rw [bigSep_W0, (arr_whole0 0).set_eq_univ, (arr_whole0 2).set_eq_univ]
  rfl

/-- The distinct buffers behind them, whole. -/
theorem arrBufs_pts (c : Dev nD) (X : (b : Ref sig .tc) → Buf (Elt F) ((c : Thread nD τ).loc b)) :
    (Pipeline.arrBufs spec0 c X : sProp 𝕄)
      = iprop((((c : Thread nD τ).loc main_v6) ↦{fullShare} X main_v6) ∗ (((c : Thread nD τ).loc main_v7) ↦{fullShare} X main_v7)) := by
  unfold Pipeline.arrBufs
  rw [show Finset.univ.image (Pipeline.arrRef spec0) = insert main_v6 {main_v7} from by decide,
    bigSep_insert (by decide), bigSep_singleton]
  rfl

/-- Whole buffers holding one matrix and a result are the arrays with the matrix at both input windows: its full share
    is the two halves. -/
theorem arrays_of_bufs (c : Dev nD) (G : (w : Fin cfg0.W) → Buf (Elt F) ((cfg0.win w).arr.view.loc (c : Thread nD τ)))
    (X : (b : Ref sig .tc) → Buf (Elt F) ((c : Thread nD τ).loc b))
    (h0 : G 0 = X main_v6) (h1 : G 1 = X main_v6) (h2 : G 2 = X main_v7) :
    (Pipeline.arrBufs spec0 c X : sProp 𝕄) ⊢ (dats m 0 c).arrays G := by
  rw [arrays_pts, arrBufs_pts, h0, h1, h2]
  iintro ⟨H6, H7⟩
  ihave H := (pointsTo_share (PosShare.mem_left_op_right fullShare)).mp $$ H6
  icases H with ⟨Hl, Hr⟩
  isplitl [Hl]; · iexact Hl
  isplitl [Hr]; · iexact Hr
  iexact H7

/-- And back. -/
theorem bufs_of_arrays (c : Dev nD) (G : (w : Fin cfg0.W) → Buf (Elt F) ((cfg0.win w).arr.view.loc (c : Thread nD τ)))
    (X : (b : Ref sig .tc) → Buf (Elt F) ((c : Thread nD τ).loc b))
    (h0 : G 0 = X main_v6) (h1 : G 1 = X main_v6) (h2 : G 2 = X main_v7) :
    ((dats m 0 c).arrays G : sProp 𝕄) ⊢ Pipeline.arrBufs spec0 c X := by
  rw [arrays_pts, arrBufs_pts, h0, h1, h2]
  iintro ⟨Hl, Hr, H7⟩
  isplitl [Hl Hr]
  · iapply (pointsTo_share (PosShare.mem_left_op_right fullShare)).mpr
    isplitl [Hl]; · iexact Hl
    iexact Hr
  iexact H7

/-- At the region's entry. -/
theorem hsplit (c : Dev nD) : (Pipeline.arrBufs spec0 c (V m c) : sProp 𝕄) ⊢ (dats m 0 c).arrays ((dats m 0 c).arrAt · 0) :=
  arrays_of_bufs m c _ _ rfl rfl rfl

/-! ## The operations after the region -/

/-- What core `c`'s unscoped buffers hold when the region is left: as at its entry, but for the result array, which
    holds what the write-backs left. -/
def W1 (c : Dev nD) : Valuation τ sig (Elt F) := fun b =>
  if h : Proc.devRef .tc main_v7 = b then
    cast (congrArg (fun b' : DevRef τ sig => b'.ty.Contents (Elt F)) h) ((dats m 0 c).arrAt 2 cfg0.N : (Proc.devRef (τ := τ) .tc main_v7).ty.Contents (Elt F))
  else V0 m c b

theorem W1_v7 (c : Dev nD) : W1 m c (Proc.devRef .tc main_v7) = (dats m 0 c).arrAt 2 cfg0.N := by
  unfold W1; rw [dif_pos rfl]; rfl
theorem W1_of_ne (c : Dev nD) (b : Ref sig .tc) (hb : b ≠ main_v7) : W1 m c (Proc.devRef .tc b) = V m c b := by
  unfold W1; rw [dif_neg (StableHlo.devRef_ne_of_ne (Ne.symm hb))]

/-- And when the eighteen later operations have run. -/
abbrev W2 (c : Dev nD) : Valuation τ sig (Elt F) := StableHlo.after (List.flatten [hostOps1]) (W1 m c)

/-- The buffers those operations write: each its own result. -/
abbrev hostOps1_W : List (Ref sig .tc) := [main_v8, main_v9, main_v10, main_v11, main_cst_0, main_v12, main_v13, main_cst_1, main_v14, main_v15, main_v16, main_v17, main_v18, main_v19, main_cst_2, main_v20, main_cst_3, main_v21]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  all_goals exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem W2_keep (c : Dev nD) (r : Ref sig .tc) (h : r ∉ hostOps1_W) : W2 m c (Proc.devRef .tc r) = W1 m c (Proc.devRef .tc r) := by
  unfold W2; rw [List.flatten_cons, List.flatten_nil, List.append_nil]
  exact StableHlo.after_of_writes_sub hostOps1 _ hostOps1_writes h

/-- An input window's array is never written back: it holds the region-entry contents throughout. -/
theorem arrAt0 (c : Dev nD) (n : ℕ) : (dats m 0 c).arrAt 0 n = V m c main_v6 := ((dats m 0 c).arrAt_in 0 rfl n).trans (A_eq m c 0)
theorem arrAt1 (c : Dev nD) (n : ℕ) : (dats m 0 c).arrAt 1 n = V m c main_v6 := ((dats m 0 c).arrAt_in 1 rfl n).trans (A_eq m c 1)

/-- The buffers that bypass the region do not see the result array's change. -/
theorem rest_congr (c : Dev nD) :
    (Pipeline.unscopedRest spec0 c (V m c) : sProp 𝕄) = Pipeline.unscopedRest spec0 c (fun b => W1 m c (Proc.devRef .tc b)) := by
  unfold Pipeline.unscopedRest
  refine bigSep_congr fun b hb => ?_
  have hb' : b ≠ main_v7 := fun e => (Finset.mem_sdiff.mp hb).2 (Finset.mem_image.mpr ⟨2, Finset.mem_univ _, e.symm⟩)
  dsimp only
  rw [W1_of_ne m c b hb']

/-- When the region is left, the arrays and the bypassing buffers are all the unscoped buffers, at `W1`; -/
theorem held_of_exit (c : Dev nD) :
    iprop((dats m 0 c).arrays ((dats m 0 c).arrAt · cfg0.N) ∗ Pipeline.unscopedRest spec0 c (V m c))
      ⊢ (StableHlo.held (c : Thread nD τ) (Pipeline.ucRefs τ sig) (W1 m c) : sProp 𝕄) := by
  rw [← Pipeline.unscopedBufs_held (Ix := Unit) (Name := ℕ) (U := UR sig nD τ) (Lvl := ℕ) c (W1 m c),
    Pipeline.unscopedBufs_split₀ cfgs 0 winFacts₀0.arr_unscoped c, rest_congr m c]
  exact sep_mono (bufs_of_arrays m c _ _ ((arrAt0 m c _).trans (W1_of_ne m c main_v6 (by decide)).symm)
    ((arrAt1 m c _).trans (W1_of_ne m c main_v6 (by decide)).symm) (W1_v7 m c).symm) .rfl

/-- and after the later operations the same at `W2`: they write neither array. -/
theorem exit_of_held (c : Dev nD) :
    (StableHlo.held (c : Thread nD τ) (Pipeline.ucRefs τ sig) (W2 m c) : sProp 𝕄)
      ⊢ iprop((dats m 0 c).arrays ((dats m 0 c).arrAt · cfg0.N) ∗ Pipeline.unscopedRest spec0 c (fun b => W2 m c (Proc.devRef .tc b))) := by
  rw [← Pipeline.unscopedBufs_held (Ix := Unit) (Name := ℕ) (U := UR sig nD τ) (Lvl := ℕ) c (W2 m c),
    Pipeline.unscopedBufs_split₀ cfgs 0 winFacts₀0.arr_unscoped c]
  exact sep_mono (arrays_of_bufs m c _ _
    ((arrAt0 m c _).trans ((W2_keep m c main_v6 (by decide)).trans (W1_of_ne m c main_v6 (by decide))).symm)
    ((arrAt1 m c _).trans ((W2_keep m c main_v6 (by decide)).trans (W1_of_ne m c main_v6 (by decide))).symm)
    ((W2_keep m c main_v7 (by decide)).trans (W1_v7 m c)).symm) .rfl

/-! ## The run -/

/-- What every final state satisfies: each array of the pipeline at what the write-backs left, every bypassing buffer
    at what the later operations left. -/
def Post (r : PUnit × MemSt nD τ sig (Elt F)) : Prop :=
  ∀ c : Dev nD, (∀ w, r.2.mem ((cfg0.spec w).arr.view.loc (c : Thread nD τ)) = (dats m 0 c).arrAt w cfg0.N)
    ∧ ∀ b ∈ Pipeline.restRefsP sig Pipeline.Prefetch.none spec0, r.2.mem ((c : Thread nD τ).loc b) = W2 m c (Proc.devRef .tc b)

/-- THE LATER OPERATIONS: from the region's exit they run within the unscoped buffers and hand back the arrays as they
    were and the bypassing buffers at `W2`. -/
theorem htail (c : Dev nD) (Q' : PUnit → sProp 𝕄) :
    iprop((iprop((dats m 0 c).arrays ((dats m 0 c).arrAt · cfg0.N)
              ∗ Pipeline.unscopedRestP Pipeline.Prefetch.none spec0 c (fun b => W2 m c (Proc.devRef .tc b))) -∗ Q' ⟨⟩)
        ∗ boundary (c : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [Pipeline.unscopedRestP_none, Pipeline.unscopedRestP_none]
  show _ ⊢ wp frame _ Set.univ (Pipeline.chain (([hostOps1] : List (List (HloOp τ sig (Elt F)))).map StableHlo.seq ++ [])) Q'
  iintro ⟨Hk, Hb, Ha, Hz⟩
  ihave Hh := (held_of_exit m c) $$ [Ha Hz]
  · isplitl [Ha]; · iexact Ha
    iexact Hz
  iapply (Pipeline.wp_seqs_then (fun q => (cfgs q).toPCfg (Val := Elt F)) defs₀ Variants.none c (Pipeline.ucRefs τ sig) [] [hostOps1]
    (fun ops hops op hop => by
      simp only [List.mem_cons, List.mem_nil_iff, or_false] at hops; subst hops
      exact Pipeline.sub_ucRefs op ((List.forall_iff_forall_mem.mp hostOps1_sub) op hop))
    (fun ops hops op hop => by
      simp only [List.mem_cons, List.mem_nil_iff, or_false] at hops; subst hops
      exact (List.forall_iff_forall_mem.mp hostOps1_fresh) op hop)
    (W1 m c)) $$ [Hb Hh]
  · isplitl [Hb]; · iexact Hb
    iexact Hh
  iintro ⟨Hb, Hh⟩
  rw [Pipeline.chain_nil, wp_pure]
  imodintro
  iapply Hk
  iapply (exit_of_held m c)
  iexact Hh

set_option backward.isDefEq.respectTransparency.types false in
/-- At the compiled mesh, for any float values, from any memory with zero counters: every weakly fair execution of
    @main on the TensorCores terminates, nothing faulting, in a state satisfying `Post`. -/
theorem run_main : θ_run defs (onTc (τ := τ) (main (F := F))) (s₀ m ρ) (Post m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells (Pipeline.pin (fun q => (cfgs q).toPCfg (Val := Elt F)) fun q => (cfgs q).toPCfg_adm) cellOf_inj) (Pipeline.launchToks (Pipeline.pin (fun q => (cfgs q).toPCfg (Val := Elt F)) fun q => (cfgs q).toPCfg_adm) cellOf_inj))
    (hu₀ := by
      rw [ownU_emb₁]
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRestP Pipeline.Prefetch.none spec0 c (fun b => W2 m c (Proc.devRef .tc b)))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c : Thread nD τ).loc b) = W2 m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c : Thread nD τ).loc b) (fun b => W2 m c (Proc.devRef .tc b)) s')
      isplitl [HU] <;> iassumption)
    (hQ := fun s h c => ⟨(h c).1, (h c).2.2⟩)

/-! ## The arguments are not written -/

abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  all_goals exact List.mem_map_of_mem (by decide)

abbrev hostOps0_1_W : List (Ref sig .tc) := [main_call0_v0, main_call0_cst, main_call0_v1, main_call0_v2, main_v1]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  all_goals exact ⟨List.mem_map_of_mem (by decide), List.mem_map_of_mem (by decide), List.mem_map_of_mem (by decide), List.mem_map_of_mem (by decide), List.mem_map_of_mem (by decide)⟩

abbrev hostOps0_2_W : List (Ref sig .tc) := [main_cst, main_v2, main_v3, main_v4, main_v5, main_v6]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  all_goals exact ⟨List.mem_map_of_mem (by decide), List.mem_map_of_mem (by decide), List.mem_map_of_mem (by decide), List.mem_map_of_mem (by decide), List.mem_map_of_mem (by decide), List.mem_map_of_mem (by decide)⟩

/-- A buffer none of the twelve operations before the region writes enters it as launched. -/
theorem V_keep (c : Dev nD) (r : Ref sig .tc) (h0 : r ∉ hostOps0_W) (h1 : r ∉ hostOps0_1_W) (h2 : r ∉ hostOps0_2_W) :
    V m c r = m ((c : Thread nD τ).loc r) := by
  show StableHlo.after (hostOps0 ++ (hostOps0_1 ++ (hostOps0_2 ++ []))) (fun b => m (c, b)) (Proc.devRef .tc r) = _
  rw [List.append_nil, StableHlo.after_append, StableHlo.after_append,
    StableHlo.after_of_writes_sub hostOps0_2 _ hostOps0_2_writes h2,
    StableHlo.after_of_writes_sub hostOps0_1 _ hostOps0_1_writes h1,
    StableHlo.after_of_writes_sub hostOps0 _ hostOps0_writes h0]

/-- A buffer no host operation writes, and that is not the result array, ends as launched. -/
theorem W2_launch (c : Dev nD) (r : Ref sig .tc) (h0 : r ∉ hostOps0_W) (h1 : r ∉ hostOps0_1_W) (h2 : r ∉ hostOps0_2_W)
    (h3 : r ∉ hostOps1_W) (h7 : r ≠ main_v7) : W2 m c (Proc.devRef .tc r) = m ((c : Thread nD τ).loc r) :=
  (W2_keep m c r h3).trans ((W1_of_ne m c r h7).trans (V_keep m c r h0 h1 h2))

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide)).trans (W2_launch m c main_arg0 (by decide) (by decide) (by decide) (by decide) (by decide)),
     ((h c).2 main_arg1 (by decide)).trans (W2_launch m c main_arg1 (by decide) (by decide) (by decide) (by decide) (by decide))⟩) (run_main m ρ)

end Cert.Kernel.Body

end
-- ==== Proof.KernelIdeal.Body.lean ====
import proofs.«110532_j65867618451797_2_alg».proof.Proof.Gen.KernelIdeal.Launch
import proofs.«110532_j65867618451797_2_alg».proof.Proof.Gen.KernelIdeal.Skeleton
import proofs.«110532_j65867618451797_2_alg».proof.Proof.Gen.KernelIdeal.Points
import Idealize.ShloMosaic.Lib.Pipeline.FrameBody
import Idealize.ShloMosaic.Lib.Tactic
import proofs.«110532_j65867618451797_2_alg».proof.Proof.LibWholeStore

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the tile of rows [1024·i₀, 1024·i₀+1024) and columns [2048·i₁, 2048·i₁+2048) can meet the diagonal, as the body computes it. -/
abbrev tile (i : grid0.Coords) : BitVec 1 :=
  Scalar.andi
    (Scalar.cmpi .slt (Scalar.muli (BitVec.ofNat 32 (i 0).val) 1024#32) (Scalar.addi (Scalar.muli (BitVec.ofNat 32 (i 1).val) 2048#32) 2048#32))
    (Scalar.cmpi .sgt (Scalar.addi (Scalar.muli (BitVec.ofNat 32 (i 0).val) 1024#32) 1024#32) (Scalar.muli (BitVec.ofNat 32 (i 1).val) 2048#32))
/-- The four branch conditions of the body, from the grid coordinates. -/
abbrev cond1 (i : grid0.Coords) : Prop := (Scalar.cmpi .ne (Scalar.extui (Scalar.cmpi .eq (BitVec.ofNat 32 (i 1).val) 0#32) : BitVec 32) 0#32) = 1#1
abbrev cond2 (i : grid0.Coords) : Prop := (Scalar.cmpi .ne (Scalar.extui (tile i) : BitVec 32) 0#32) = 1#1
abbrev cond3 (i : grid0.Coords) : Prop := (Scalar.cmpi .ne (Scalar.extui (Scalar.xori (tile i) 1#1) : BitVec 32) 0#32) = 1#1
abbrev cond4 (i : grid0.Coords) : Prop := k0_cond4 i = 1#1

/-- The two-axis offset written with literals is the zero offset. -/
theorem hz2 : (![0, 0] : Fin 2 → ℕ) = fun _ => 0 := by funext a; fin_cases a <;> rfl

/-- The block of 2048 rows of the resident matrix that the body loads at point `i`: rows 2048·i₁ … 2048·i₁ + 2047. -/
def kblk (i : grid0.Coords) (x3 : Vec F S8192x256 .bf16) : Vec F S2048x256 .bf16 :=
  View.ld x3 (Rect.unit (s := S8192x256) (k0_off1 i) S2048x256.size (k0_off1_inb i))

/-- The accumulator the point works on: zero on the first column tile of a row tile, else what the point before left. -/
def accIn (i : grid0.Coords) (xs : Vec F S1024x1 .f32) : Vec F S1024x1 .f32 :=
  if cond1 i then k0_pay1 else xs

/-- The accumulator the point leaves: the entering one plus the row sums of exp(2·s) over the tile, the diagonal
    entries of s put to zero first where the tile can meet the diagonal. -/
def accOut (i : grid0.Coords) (x2 : Vec F S1024x256 .bf16) (x3 : Vec F S8192x256 .bf16) (xs : Vec F S1024x1 .f32) : Vec F S1024x1 .f32 :=
  if cond2 i then k0_pay3 i (kblk i x3) x2 (accIn i xs) else k0_pay4 (kblk i x3) x2 (accIn i xs)

/-- The output block the point leaves: the accumulator on the last column tile, else what it held. -/
def outOut (i : grid0.Coords) (x2 : Vec F S1024x256 .bf16) (x3 : Vec F S8192x256 .bf16) (xo4 xs : Vec F S1024x1 .f32) : Vec F S1024x1 .f32 :=
  if cond4 i then accOut i x2 x3 xs else xo4

/-- The combinations of the four branch conditions that the grid meets. -/
abbrev Cases (i : grid0.Coords) : Prop :=
  (cond1 i ∧ cond2 i ∧ ¬ cond3 i ∧ ¬ cond4 i)
  ∨ (cond1 i ∧ ¬ cond2 i ∧ cond3 i ∧ ¬ cond4 i)
  ∨ (¬ cond1 i ∧ cond2 i ∧ ¬ cond3 i ∧ ¬ cond4 i)
  ∨ (¬ cond1 i ∧ ¬ cond2 i ∧ cond3 i ∧ ¬ cond4 i)
  ∨ (¬ cond1 i ∧ cond2 i ∧ ¬ cond3 i ∧ cond4 i)
  ∨ (¬ cond1 i ∧ ¬ cond2 i ∧ cond3 i ∧ cond4 i)

set_option maxHeartbeats 1000000 in
/-- The body at a point where the accumulator is reset, the tile can meet the diagonal, and the output is left alone. -/
theorem run_A (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : cond1 i) (hc2 : cond2 i) (hc3 : ¬ cond3 i) (hc4 : ¬ cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_neg hc4]

  iexists _; isplitr; swap; (· iexact H5)
  ipureintro
  sl_unfold_words
  unfold accOut accIn; rw [if_pos hc2, if_pos hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is reset, the tile cannot meet the diagonal, and the output is left alone. -/
theorem run_B (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : cond1 i) (hc2 : ¬ cond2 i) (hc3 : cond3 i) (hc4 : ¬ cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_neg hc4]

  iexists _; isplitr; swap; (· iexact H5)
  ipureintro
  sl_unfold_words
  unfold accOut accIn; rw [if_neg hc2, if_pos hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is carried, the tile can meet the diagonal, and the output is left alone. -/
theorem run_C (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : ¬ cond1 i) (hc2 : cond2 i) (hc3 : ¬ cond3 i) (hc4 : ¬ cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_neg hc4]

  iexists _; isplitr; swap; (· iexact H5)
  ipureintro
  sl_unfold_words
  unfold accOut accIn; rw [if_pos hc2, if_neg hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is carried, the tile cannot meet the diagonal, and the output is left alone. -/
theorem run_D (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : ¬ cond1 i) (hc2 : ¬ cond2 i) (hc3 : cond3 i) (hc4 : ¬ cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_neg hc4]

  iexists _; isplitr; swap; (· iexact H5)
  ipureintro
  sl_unfold_words
  unfold accOut accIn; rw [if_neg hc2, if_neg hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is carried, the tile can meet the diagonal, and the output is written. -/
theorem run_E (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : ¬ cond1 i) (hc2 : cond2 i) (hc3 : ¬ cond3 i) (hc4 : cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_pos hc4]
    unfold accOut accIn; rw [if_pos hc2, if_neg hc1]
    simp only [View.read_writes_cons_unit_zero (S := S1024x1) _ _ hz2, View.readCov_unit_zero (S := S1024x1) _ hz2, View.readAt_unit_zero (S := S1024x1) _ _ hz2, View.readAt_unit_zero (S := S1024x256) _ _ hz2]
    rfl
  iexists _; isplitr; swap; (· iexact H5)
  ipureintro
  sl_unfold_words
  unfold accOut accIn; rw [if_pos hc2, if_neg hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

set_option maxHeartbeats 1000000 in
/-- The body at a point where the accumulator is carried, the tile cannot meet the diagonal, and the output is written. -/
theorem run_F (c : Dev nD) (i : grid0.Coords)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (hc1 : ¬ cond1 i) (hc2 : ¬ cond2 i) (hc3 : cond3 i) (hc4 : cond4 i)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f2, %hf2, H2⟩, ⟨%f3, %hf3, H3⟩, ⟨%f4, %hf4, H4⟩, ⟨%f5, %hf5, H5⟩, Hk⟩
  subst hf2 hf3 hf4 hf5
  sl_exec (disch := first | exact hc1 | exact hc2 | exact hc3 | exact hc4)
  sl_step
  iapply Hk
  isplitl [H2]
  · iexists _; isplitr; · ipureintro; rfl
    iexact H2
  isplitl [H3]
  · iexists _; isplitr; · ipureintro; rfl
    iexact H3
  isplitl [H4]
  · iexists _; isplitr; swap; (· iexact H4)
    ipureintro
    sl_unfold_words
    unfold outOut; rw [if_pos hc4]
    unfold accOut accIn; rw [if_neg hc2, if_neg hc1]
    simp only [View.read_writes_cons_unit_zero (S := S1024x1) _ _ hz2, View.readCov_unit_zero (S := S1024x1) _ hz2, View.readAt_unit_zero (S := S1024x1) _ _ hz2, View.readAt_unit_zero (S := S1024x256) _ _ hz2]
    rfl
  iexists _; isplitr; swap; (· iexact H5)
  ipureintro
  sl_unfold_words
  unfold accOut accIn; rw [if_neg hc2, if_neg hc1]
  simp only [View.read_writes_cons_unit_zero (S := S1024x1) _ _ hz2, View.readCov_unit_zero (S := S1024x1) _ hz2, View.readAt_unit_zero (S := S1024x1) _ _ hz2, View.readAt_unit_zero (S := S1024x256) _ _ hz2]
  rfl

/-- THE BODY at any point of the grid: from the two input blocks, the output block and the accumulator held whole, it
    runs to its return leaving the inputs as they were, the accumulator at `accOut` and the output block at `outOut`. -/
theorem kernelRun (c : Dev nD) (i : grid0.Coords) (hcase : Cases i)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (x2 : Vec F S1024x256 .bf16) (x3 : Vec F S8192x256 .bf16) (xo4 xs : Vec F S1024x1 .f32)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare (outOut i x2 x3 xo4 xs)
            ∗ owns (c : Thread nD τ) arg5 fullShare (accOut i x2 x3 xs)) -∗ K ⟨⟩))
      ⊢ wp frame (wpE (defs₀ (F := F)) Variants.none c none) E (cc0__denom_kernel i arg2 harg2 arg3 harg3 arg4 harg4 arg5 harg5) K := by
  rcases hcase with ⟨h1, h2, h3, h4⟩ | ⟨h1, h2, h3, h4⟩ | ⟨h1, h2, h3, h4⟩ | ⟨h1, h2, h3, h4⟩ | ⟨h1, h2, h3, h4⟩ | ⟨h1, h2, h3, h4⟩
  · exact run_A c i arg2 harg2 arg3 harg3 arg4 harg4 arg5 harg5 h1 h2 h3 h4 x2 x3 xo4 xs E K
  · exact run_B c i arg2 harg2 arg3 harg3 arg4 harg4 arg5 harg5 h1 h2 h3 h4 x2 x3 xo4 xs E K
  · exact run_C c i arg2 harg2 arg3 harg3 arg4 harg4 arg5 harg5 h1 h2 h3 h4 x2 x3 xo4 xs E K
  · exact run_D c i arg2 harg2 arg3 harg3 arg4 harg4 arg5 harg5 h1 h2 h3 h4 x2 x3 xo4 xs E K
  · exact run_E c i arg2 harg2 arg3 harg3 arg4 harg4 arg5 harg5 h1 h2 h3 h4 x2 x3 xo4 xs E K
  · exact run_F c i arg2 harg2 arg3 harg3 arg4 harg4 arg5 harg5 h1 h2 h3 h4 x2 x3 xo4 xs E K

end Cert.KernelIdeal.Body

end
-- ==== Proof.KernelIdeal.Data.lean ====
import proofs.«110532_j65867618451797_2_alg».proof.Proof.KernelIdeal.Body
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the twelve host operations before it have run
    (the concatenation, the row norms, the clamp, the quotient, the change of format). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host operations, the region, and the eighteen operations after it: it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

/-- The accumulator is reset on the first of the four column tiles of each row tile. -/
theorem hcond1 : ∀ t : Fin cfg0.N, cond1 (grid0.coords t) ↔ t.val % 4 = 0 :=
  (by decide +kernel : ∀ t : Fin grid0.N, cond1 (grid0.coords t) ↔ t.val % 4 = 0)
/-- The output block is written on the last of them. -/
theorem hcond4 : ∀ t : Fin cfg0.N, cond4 (grid0.coords t) ↔ t.val % 4 = 3 :=
  (by decide +kernel : ∀ t : Fin grid0.N, cond4 (grid0.coords t) ↔ t.val % 4 = 3)
/-- Every point is in one of the six combinations. -/
theorem cases_grid : ∀ t : Fin cfg0.N, Cases (grid0.coords t) :=
  (by decide +kernel : ∀ t : Fin grid0.N, Cases (grid0.coords t))
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cond4 (grid0.coords t) → cfg0.idle 2 (grid0.coords t) = false := by decide +kernel
theorem idleAt2 : ∀ t : Fin cfg0.N, ¬ cond4 (grid0.coords t) → cfg0.idle 2 (grid0.coords t) = true := by decide +kernel
theorem noFlush2 : ∀ t : Fin cfg0.N, ¬ cond4 (grid0.coords t) → (cfg0.win 2).flush t = false := by decide +kernel

/-! ## The staging memrefs and the scratch -/

abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S1024x1 .f32 := Memref.whole cc0_scratch0

/-- The region's plain invariant with the accumulator as a memref held at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator after each point -/

/-- THE ACCUMULATION. What the accumulator holds after the body at position `n`: the point's step applied to what the
    point before left (at a point that resets it, whatever that was). -/
def accAt (c : Dev nD) : (n : ℕ) → n < cfg0.N → Vec F S1024x1 .f32
  | 0, hn => accOut (grid0.coords ⟨0, hn⟩) (iblk m c 0 ⟨0, hn⟩) (iblk m c 1 ⟨0, hn⟩) k0_pay1
  | n + 1, hn => accOut (grid0.coords ⟨n + 1, hn⟩) (iblk m c 0 ⟨n + 1, hn⟩) (iblk m c 1 ⟨n + 1, hn⟩) (accAt c n (Nat.lt_of_succ_lt hn))

/-- Where the accumulator is reset, what it held does not matter. -/
theorem accOut_reset {i : grid0.Coords} (h : cond1 i) (x2 : Vec F S1024x256 .bf16) (x3 : Vec F S8192x256 .bf16) (xs xs' : Vec F S1024x1 .f32) :
    accOut i x2 x3 xs = accOut i x2 x3 xs' := by
  simp only [accOut, accIn, if_pos h]

/-- The point's step from contents that, unless the point resets them, are what the point before left, gives the
    accumulator after the point. -/
theorem accAt_eq (c : Dev nD) (t : Fin cfg0.N) (xs : Vec F S1024x1 .f32)
    (h : t.val % 4 ≠ 0 → xs = accAt m c (t.val - 1) (Nat.lt_of_le_of_lt (Nat.sub_le _ _) t.isLt)) :
    accOut (grid0.coords t) (iblk m c 0 t) (iblk m c 1 t) xs = accAt m c t.val t.isLt := by
  obtain ⟨n, hn⟩ := t
  cases n with
  | zero => exact accOut_reset ((hcond1 ⟨0, hn⟩).mpr (Nat.zero_mod _)) _ _ _ _
  | succ n =>
    by_cases h0 : (n + 1) % 4 = 0
    · exact accOut_reset ((hcond1 ⟨n + 1, hn⟩).mpr h0) _ _ _ _
    · rw [h h0]; rfl

/-- The region invariant before position `n`: before the first point the plain one; afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

/-- The proof data on core `c`: the arrays as the region finds them; after the body at a point each input's buffer at
    its block and the output's at the accumulator; the invariant tracking the accumulator; nothing owed; the normalized
    matrix, which both input windows read, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- The body's run with the contents it leaves named by equations. -/
theorem kernelRun' (c : Dev nD) (i : grid0.Coords) (hcase : Cases i)
    (arg2 : Memref sig .tc .vmem S1024x256 .bf16) (harg2 : arg2.IsWhole) (arg3 : Memref sig .tc .vmem S8192x256 .bf16) (harg3 : arg3.IsWhole)
    (arg4 : Memref sig .tc .vmem S1024x1 .f32) (harg4 : arg4.IsWhole) (arg5 : Memref sig .tc .vmem S1024x1 .f32) (harg5 : arg5.IsWhole)
    (x2 : Vec F S1024x256 .bf16) (x3 : Vec F S8192x256 .bf16) (xo4 xs A O : Vec F S1024x1 .f32)
    (e1 : accOut i x2 x3 xs = A) (e2 : outOut i x2 x3 xo4 xs = O)
    (E : Set ℕ) (K : PUnit → sProp 𝕄) :
    iprop(owns (c : Thread nD τ) arg2 fullShare x2 ∗ owns (c : Thread nD τ) arg3 fullShare x3
        ∗ owns (c : Thread nD τ) arg4 fullShare xo4 ∗ owns (c : Thread nD τ) arg5 fullShare xs
        ∗ (iprop(owns (c : Thread nD τ) arg2 fullShare x2 ∗ owns (c : Thread nD τ) arg3 fullShare x3
            ∗ owns (c : Thread nD τ) arg4 fullShare O
            ∗ owns (c : Thread nD τ) arg5 fullShare A) -∗ K ⟨⟩))
      ⊢ wp frame (wpE (defs₀ (F := F)) Variants.none c none) E (cc0__denom_kernel i arg2 harg2 arg3 harg3 arg4 harg4 arg5 harg5) K := by
  subst e1 e2
  exact kernelRun c i hcase arg2 harg2 arg3 harg3 arg4 harg4 arg5 harg5 x2 x3 xo4 xs E K

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 2000000 in
/-- The body at any point: the inputs' memrefs hold their blocks; the invariant hands the body the accumulator at what
    the point before left (at anything at the first point) and takes it back at this point's contents; the output's
    buffer is handed back as found except on the last column tile, where it takes the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  have hcase := cases_grid t
  have hN : t.val < 32 := lt_of_lt_of_eq t.isLt (show cfg0.N = 32 from N_0)
  by_cases h4 : cond4 (grid0.coords t)
  · have h43 : t.val % 4 = 3 := (hcond4 t).mp h4
    have hz : t.val ≠ 0 := by omega
    rw [show (dats m 0 c).leavesExact 2 t = owns (c : Thread nD τ) (ms2 t) fullShare ((dats m 0 c).after 2 t) from by
      unfold Dat.leavesExact; rw [liveAt2 t h4], after2]
    rw [PhiS_castSucc m c t, PhiS_pos m c _ _ hz]
    iintro ⟨⟨HS, Hg⟩, Ho, ⟨%d0, H0⟩, ⟨%d1, H1⟩, ⟨%d2, H2⟩⟩
    iapply (kernelRun' c (grid0.coords t) hcase (ms0 t) (hs0 t) (ms1 t) (hs1 t) (ms2 t) (hs2 t) scM (Memref.isWhole_whole _)
      (iblk m c 0 t) (iblk m c 1 t) ((dats m 0 c).before 2 t d2) _ (accAt m c t.val t.isLt) (accAt m c t.val t.isLt)
      (accAt_eq m c t _ (fun _ => rfl))
      (by unfold outOut; rw [if_pos h4]; exact accAt_eq m c t _ (fun _ => rfl)) Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 c) 2 t (idleAt2 t h4) (noFlush2 t h4)]
    by_cases hz : t.val = 0
    · rw [PhiS_castSucc m c t, PhiS_zero m c _ _ hz, PhiA_eq]
      iintro ⟨⟨⟨%ds, HS⟩, Hg⟩, Ho, ⟨%d0, H0⟩, ⟨%d1, H1⟩, ⟨%d2, H2⟩⟩
      iapply (kernelRun' c (grid0.coords t) hcase (ms0 t) (hs0 t) (ms1 t) (hs1 t) (ms2 t) (hs2 t) scM (Memref.isWhole_whole _)
        (iblk m c 0 t) (iblk m c 1 t) ((dats m 0 c).before 2 t d2) ds (accAt m c t.val t.isLt) ((dats m 0 c).before 2 t d2)
        (accAt_eq m c t _ (fun h => absurd (by rw [hz]) h))
        (by unfold outOut; rw [if_neg h4]) Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply (kernelRun' c (grid0.coords t) hcase (ms0 t) (hs0 t) (ms1 t) (hs1 t) (ms2 t) (hs2 t) scM (Memref.isWhole_whole _)
        (iblk m c 0 t) (iblk m c 1 t) ((dats m 0 c).before 2 t d2) _ (accAt m c t.val t.isLt) ((dats m 0 c).before 2 t d2)
        (accAt_eq m c t _ (fun _ => rfl))
        (by unfold outOut; rw [if_neg h4]) Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The body's obligation at every point of the grid: from the invariant and the staged blocks it runs to the next
    point's invariant and the blocks as the proof data name them. -/
theorem body_obligation (c : Dev nD) : BodyObligation (dats (F := F) m 0 c) (defs₀ (F := F)) Variants.none () Set.univ := fun t => by
  rw [bigSep_W0, bigSep_W0]
  exact sound_body m c t

/-- Before the first point the invariant is the plain one; -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- after the last it gives the plain one back, the accumulator's contents forgotten. -/
theorem hout (c : Dev nD) : (dats m 0 c).Φ (Fin.last cfg0.N) ⊢ Pipeline.ΦA spec0 c := by
  have hl : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨HS, Hg⟩
  isplitl [HS]
  · iexists _; iexact HS
  iexact Hg

end Cert.KernelIdeal.Body

end
-- ==== Proof.KernelIdeal.Run.lean ====
import proofs.«110532_j65867618451797_2_alg».proof.Proof.KernelIdeal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, which two input windows share -/

/-- The pipeline's arrays: the normalized matrix behind both input windows, one half share each, and the result. -/
theorem arrays_pts (c : Dev nD) (G : (w : Fin cfg0.W) → Buf (Elt F) ((cfg0.win w).arr.view.loc (c : Thread nD τ))) :
    ((dats m 0 c).arrays G : sProp 𝕄)
      = iprop((((c : Thread nD τ).loc main_v6) ↦{fullShare.left} G 0) ∗ (((c : Thread nD τ).loc main_v6) ↦{fullShare.right} G 1)
          ∗ (((c : Thread nD τ).loc main_v7) ↦{fullShare} G 2)) := by
  unfold Dat.arrays
  rw [bigSep_W0, (arr_whole0 0).set_eq_univ, (arr_whole0 2).set_eq_univ]
  rfl

/-- The distinct buffers behind them, whole. -/
theorem arrBufs_pts (c : Dev nD) (X : (b : Ref sig .tc) → Buf (Elt F) ((c : Thread nD τ).loc b)) :
    (Pipeline.arrBufs spec0 c X : sProp 𝕄)
      = iprop((((c : Thread nD τ).loc main_v6) ↦{fullShare} X main_v6) ∗ (((c : Thread nD τ).loc main_v7) ↦{fullShare} X main_v7)) := by
  unfold Pipeline.arrBufs
  rw [show Finset.univ.image (Pipeline.arrRef spec0) = insert main_v6 {main_v7} from by decide,
    bigSep_insert (by decide), bigSep_singleton]
  rfl

/-- Whole buffers holding one matrix and a result are the arrays with the matrix at both input windows: its full share
    is the two halves. -/
theorem arrays_of_bufs (c : Dev nD) (G : (w : Fin cfg0.W) → Buf (Elt F) ((cfg0.win w).arr.view.loc (c : Thread nD τ)))
    (X : (b : Ref sig .tc) → Buf (Elt F) ((c : Thread nD τ).loc b))
    (h0 : G 0 = X main_v6) (h1 : G 1 = X main_v6) (h2 : G 2 = X main_v7) :
    (Pipeline.arrBufs spec0 c X : sProp 𝕄) ⊢ (dats m 0 c).arrays G := by
  rw [arrays_pts, arrBufs_pts, h0, h1, h2]
  iintro ⟨H6, H7⟩
  ihave H := (pointsTo_share (PosShare.mem_left_op_right fullShare)).mp $$ H6
  icases H with ⟨Hl, Hr⟩
  isplitl [Hl]; · iexact Hl
  isplitl [Hr]; · iexact Hr
  iexact H7

/-- And back. -/
theorem bufs_of_arrays (c : Dev nD) (G : (w : Fin cfg0.W) → Buf (Elt F) ((cfg0.win w).arr.view.loc (c : Thread nD τ)))
    (X : (b : Ref sig .tc) → Buf (Elt F) ((c : Thread nD τ).loc b))
    (h0 : G 0 = X main_v6) (h1 : G 1 = X main_v6) (h2 : G 2 = X main_v7) :
    ((dats m 0 c).arrays G : sProp 𝕄) ⊢ Pipeline.arrBufs spec0 c X := by
  rw [arrays_pts, arrBufs_pts, h0, h1, h2]
  iintro ⟨Hl, Hr, H7⟩
  isplitl [Hl Hr]
  · iapply (pointsTo_share (PosShare.mem_left_op_right fullShare)).mpr
    isplitl [Hl]; · iexact Hl
    iexact Hr
  iexact H7

/-- At the region's entry. -/
theorem hsplit (c : Dev nD) : (Pipeline.arrBufs spec0 c (V m c) : sProp 𝕄) ⊢ (dats m 0 c).arrays ((dats m 0 c).arrAt · 0) :=
  arrays_of_bufs m c _ _ rfl rfl rfl

/-! ## The operations after the region -/

/-- What core `c`'s unscoped buffers hold when the region is left: as at its entry, but for the result array, which
    holds what the write-backs left. -/
def W1 (c : Dev nD) : Valuation τ sig (Elt F) := fun b =>
  if h : Proc.devRef .tc main_v7 = b then
    cast (congrArg (fun b' : DevRef τ sig => b'.ty.Contents (Elt F)) h) ((dats m 0 c).arrAt 2 cfg0.N : (Proc.devRef (τ := τ) .tc main_v7).ty.Contents (Elt F))
  else V0 m c b

theorem W1_v7 (c : Dev nD) : W1 m c (Proc.devRef .tc main_v7) = (dats m 0 c).arrAt 2 cfg0.N := by
  unfold W1; rw [dif_pos rfl]; rfl
theorem W1_of_ne (c : Dev nD) (b : Ref sig .tc) (hb : b ≠ main_v7) : W1 m c (Proc.devRef .tc b) = V m c b := by
  unfold W1; rw [dif_neg (StableHlo.devRef_ne_of_ne (Ne.symm hb))]

/-- And when the eighteen later operations have run. -/
abbrev W2 (c : Dev nD) : Valuation τ sig (Elt F) := StableHlo.after (List.flatten [hostOps1]) (W1 m c)

/-- The buffers those operations write: each its own result. -/
abbrev hostOps1_W : List (Ref sig .tc) := [main_v8, main_v9, main_v10, main_v11, main_cst_0, main_v12, main_v13, main_cst_1, main_v14, main_v15, main_v16, main_v17, main_v18, main_v19, main_cst_2, main_v20, main_cst_3, main_v21]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  all_goals exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩

theorem W2_keep (c : Dev nD) (r : Ref sig .tc) (h : r ∉ hostOps1_W) : W2 m c (Proc.devRef .tc r) = W1 m c (Proc.devRef .tc r) := by
  unfold W2; rw [List.flatten_cons, List.flatten_nil, List.append_nil]
  exact StableHlo.after_of_writes_sub hostOps1 _ hostOps1_writes h

/-- An input window's array is never written back: it holds the region-entry contents throughout. -/
theorem arrAt0 (c : Dev nD) (n : ℕ) : (dats m 0 c).arrAt 0 n = V m c main_v6 := ((dats m 0 c).arrAt_in 0 rfl n).trans (A_eq m c 0)
theorem arrAt1 (c : Dev nD) (n : ℕ) : (dats m 0 c).arrAt 1 n = V m c main_v6 := ((dats m 0 c).arrAt_in 1 rfl n).trans (A_eq m c 1)

/-- The buffers that bypass the region do not see the result array's change. -/
theorem rest_congr (c : Dev nD) :
    (Pipeline.unscopedRest spec0 c (V m c) : sProp 𝕄) = Pipeline.unscopedRest spec0 c (fun b => W1 m c (Proc.devRef .tc b)) := by
  unfold Pipeline.unscopedRest
  refine bigSep_congr fun b hb => ?_
  have hb' : b ≠ main_v7 := fun e => (Finset.mem_sdiff.mp hb).2 (Finset.mem_image.mpr ⟨2, Finset.mem_univ _, e.symm⟩)
  dsimp only
  rw [W1_of_ne m c b hb']

/-- When the region is left, the arrays and the bypassing buffers are all the unscoped buffers, at `W1`; -/
theorem held_of_exit (c : Dev nD) :
    iprop((dats m 0 c).arrays ((dats m 0 c).arrAt · cfg0.N) ∗ Pipeline.unscopedRest spec0 c (V m c))
      ⊢ (StableHlo.held (c : Thread nD τ) (Pipeline.ucRefs τ sig) (W1 m c) : sProp 𝕄) := by
  rw [← Pipeline.unscopedBufs_held (Ix := Unit) (Name := ℕ) (U := UR sig nD τ) (Lvl := ℕ) c (W1 m c),
    Pipeline.unscopedBufs_split₀ cfgs 0 winFacts₀0.arr_unscoped c, rest_congr m c]
  exact sep_mono (bufs_of_arrays m c _ _ ((arrAt0 m c _).trans (W1_of_ne m c main_v6 (by decide)).symm)
    ((arrAt1 m c _).trans (W1_of_ne m c main_v6 (by decide)).symm) (W1_v7 m c).symm) .rfl

/-- and after the later operations the same at `W2`: they write neither array. -/
theorem exit_of_held (c : Dev nD) :
    (StableHlo.held (c : Thread nD τ) (Pipeline.ucRefs τ sig) (W2 m c) : sProp 𝕄)
      ⊢ iprop((dats m 0 c).arrays ((dats m 0 c).arrAt · cfg0.N) ∗ Pipeline.unscopedRest spec0 c (fun b => W2 m c (Proc.devRef .tc b))) := by
  rw [← Pipeline.unscopedBufs_held (Ix := Unit) (Name := ℕ) (U := UR sig nD τ) (Lvl := ℕ) c (W2 m c),
    Pipeline.unscopedBufs_split₀ cfgs 0 winFacts₀0.arr_unscoped c]
  exact sep_mono (arrays_of_bufs m c _ _
    ((arrAt0 m c _).trans ((W2_keep m c main_v6 (by decide)).trans (W1_of_ne m c main_v6 (by decide))).symm)
    ((arrAt1 m c _).trans ((W2_keep m c main_v6 (by decide)).trans (W1_of_ne m c main_v6 (by decide))).symm)
    ((W2_keep m c main_v7 (by decide)).trans (W1_v7 m c)).symm) .rfl

/-! ## The run -/

/-- What every final state satisfies: each array of the pipeline at what the write-backs left, every bypassing buffer
    at what the later operations left. -/
def Post (r : PUnit × MemSt nD τ sig (Elt F)) : Prop :=
  ∀ c : Dev nD, (∀ w, r.2.mem ((cfg0.spec w).arr.view.loc (c : Thread nD τ)) = (dats m 0 c).arrAt w cfg0.N)
    ∧ ∀ b ∈ Pipeline.restRefsP sig Pipeline.Prefetch.none spec0, r.2.mem ((c : Thread nD τ).loc b) = W2 m c (Proc.devRef .tc b)

/-- THE LATER OPERATIONS: from the region's exit they run within the unscoped buffers and hand back the arrays as they
    were and the bypassing buffers at `W2`. -/
theorem htail (c : Dev nD) (Q' : PUnit → sProp 𝕄) :
    iprop((iprop((dats m 0 c).arrays ((dats m 0 c).arrAt · cfg0.N)
              ∗ Pipeline.unscopedRestP Pipeline.Prefetch.none spec0 c (fun b => W2 m c (Proc.devRef .tc b))) -∗ Q' ⟨⟩)
        ∗ boundary (c : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [Pipeline.unscopedRestP_none, Pipeline.unscopedRestP_none]
  show _ ⊢ wp frame _ Set.univ (Pipeline.chain (([hostOps1] : List (List (HloOp τ sig (Elt F)))).map StableHlo.seq ++ [])) Q'
  iintro ⟨Hk, Hb, Ha, Hz⟩
  ihave Hh := (held_of_exit m c) $$ [Ha Hz]
  · isplitl [Ha]; · iexact Ha
    iexact Hz
  iapply (Pipeline.wp_seqs_then (fun q => (cfgs q).toPCfg (Val := Elt F)) defs₀ Variants.none c (Pipeline.ucRefs τ sig) [] [hostOps1]
    (fun ops hops op hop => by
      simp only [List.mem_cons, List.mem_nil_iff, or_false] at hops; subst hops
      exact Pipeline.sub_ucRefs op ((List.forall_iff_forall_mem.mp hostOps1_sub) op hop))
    (fun ops hops op hop => by
      simp only [List.mem_cons, List.mem_nil_iff, or_false] at hops; subst hops
      exact (List.forall_iff_forall_mem.mp hostOps1_fresh) op hop)
    (W1 m c)) $$ [Hb Hh]
  · isplitl [Hb]; · iexact Hb
    iexact Hh
  iintro ⟨Hb, Hh⟩
  rw [Pipeline.chain_nil, wp_pure]
  imodintro
  iapply Hk
  iapply (exit_of_held m c)
  iexact Hh

set_option backward.isDefEq.respectTransparency.types false in
/-- At the compiled mesh, for any float values, from any memory with zero counters: every weakly fair execution of
    @main on the TensorCores terminates, nothing faulting, in a state satisfying `Post`. -/
theorem run_main : θ_run defs (onTc (τ := τ) (main (F := F))) (s₀ m ρ) (Post m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells (Pipeline.pin (fun q => (cfgs q).toPCfg (Val := Elt F)) fun q => (cfgs q).toPCfg_adm) cellOf_inj) (Pipeline.launchToks (Pipeline.pin (fun q => (cfgs q).toPCfg (Val := Elt F)) fun q => (cfgs q).toPCfg_adm) cellOf_inj))
    (hu₀ := by
      rw [ownU_emb₁]
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRestP Pipeline.Prefetch.none spec0 c (fun b => W2 m c (Proc.devRef .tc b)))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c : Thread nD τ).loc b) = W2 m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c : Thread nD τ).loc b) (fun b => W2 m c (Proc.devRef .tc b)) s')
      isplitl [HU] <;> iassumption)
    (hQ := fun s h c => ⟨(h c).1, (h c).2.2⟩)

/-! ## The arguments are not written -/

abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  all_goals exact List.mem_map_of_mem (by decide)

abbrev hostOps0_1_W : List (Ref sig .tc) := [main_call0_v0, main_call0_cst, main_call0_v1, main_call0_v2, main_v1]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  all_goals exact ⟨List.mem_map_of_mem (by decide), List.mem_map_of_mem (by decide), List.mem_map_of_mem (by decide), List.mem_map_of_mem (by decide), List.mem_map_of_mem (by decide)⟩

abbrev hostOps0_2_W : List (Ref sig .tc) := [main_cst, main_v2, main_v3, main_v4, main_v5, main_v6]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  all_goals exact ⟨List.mem_map_of_mem (by decide), List.mem_map_of_mem (by decide), List.mem_map_of_mem (by decide), List.mem_map_of_mem (by decide), List.mem_map_of_mem (by decide), List.mem_map_of_mem (by decide)⟩

/-- A buffer none of the twelve operations before the region writes enters it as launched. -/
theorem V_keep (c : Dev nD) (r : Ref sig .tc) (h0 : r ∉ hostOps0_W) (h1 : r ∉ hostOps0_1_W) (h2 : r ∉ hostOps0_2_W) :
    V m c r = m ((c : Thread nD τ).loc r) := by
  show StableHlo.after (hostOps0 ++ (hostOps0_1 ++ (hostOps0_2 ++ []))) (fun b => m (c, b)) (Proc.devRef .tc r) = _
  rw [List.append_nil, StableHlo.after_append, StableHlo.after_append,
    StableHlo.after_of_writes_sub hostOps0_2 _ hostOps0_2_writes h2,
    StableHlo.after_of_writes_sub hostOps0_1 _ hostOps0_1_writes h1,
    StableHlo.after_of_writes_sub hostOps0 _ hostOps0_writes h0]

/-- A buffer no host operation writes, and that is not the result array, ends as launched. -/
theorem W2_launch (c : Dev nD) (r : Ref sig .tc) (h0 : r ∉ hostOps0_W) (h1 : r ∉ hostOps0_1_W) (h2 : r ∉ hostOps0_2_W)
    (h3 : r ∉ hostOps1_W) (h7 : r ≠ main_v7) : W2 m c (Proc.devRef .tc r) = m ((c : Thread nD τ).loc r) :=
  (W2_keep m c r h3).trans ((W1_of_ne m c r h7).trans (V_keep m c r h0 h1 h2))

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide)).trans (W2_launch m c main_arg0 (by decide) (by decide) (by decide) (by decide) (by decide)),
     ((h c).2 main_arg1 (by decide)).trans (W2_launch m c main_arg1 (by decide) (by decide) (by decide) (by decide) (by decide))⟩) (run_main m ρ)

end Cert.KernelIdeal.Body

end
-- ==== Proof.KernelIdeal.Step.lean ====
/-
  The body's arithmetic read at an index, over the extended reals: the 1024×2048 tile of similarities is, at (p, q),
  the sum over the 256 columns of the products of row p of the row block and row q of the column block; the step adds
  to the accumulator's row p the sum over the tile's 2048 columns of exp(2·s), s the similarity, put to zero where the
  tile can meet the diagonal and the two global indices agree.
-/
import proofs.«110532_j65867618451797_2_alg».proof.Proof.KernelIdeal.Body
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.ValueIdx
open scoped BigOperators

variable {α : Type}

/-- A vector of length a cast to a column reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The matrix product's operand indices -/

theorem lhs_0 (i : S1024x2048.Idx) (q : dot_S1024x256_S256x2048_S1024x2048_1_0_0_1_n_n.contr.Idx) : (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
theorem lhs_1 (i : S1024x2048.Idx) (q : dot_S1024x256_S256x2048_S1024x2048_1_0_0_1_n_n.contr.Idx) : (dot_S1024x256_S256x2048_S1024x2048_1_0_0_1_n_n.lhsIdx i q 1).val = (q ⟨0, by decide⟩).val :=
  dot_S1024x256_S256x2048_S1024x2048_1_0_0_1_n_n.lhsIdx_val_of_single rfl i q
theorem rhs_0 (i : S1024x2048.Idx) (q : dot_S1024x256_S256x2048_S1024x2048_1_0_0_1_n_n.contr.Idx) : (dot_S1024x256_S256x2048_S1024x2048_1_0_0_1_n_n.rhsIdx i q 0).val = (q ⟨0, by decide⟩).val :=
  dot_S1024x256_S256x2048_S1024x2048_1_0_0_1_n_n.rhsIdx_val_of_single rfl i q
theorem rhs_1 (i : S1024x2048.Idx) (q : dot_S1024x256_S256x2048_S1024x2048_1_0_0_1_n_n.contr.Idx) : (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- THE TILE OF SIMILARITIES at (p, q): row p of the row block against row q of the column block. -/
theorem pay2_apply (v6 : FVec Ideal S2048x256 .bf16) (v8 : FVec Ideal S1024x256 .bf16) (p : Fin 1024) (q : Fin 2048) :
    k0_pay2 (F := Ideal) v6 v8 (ix2 p q) = ∑ k : Fin 256, v8 (ix2 p k) * v6 (ix2 q k) := by
  unfold k0_pay2
  simp only [matmul]
  refine (Ideal.matmul_constant_zero_apply dot_S1024x256_S256x2048_S1024x2048_1_0_0_1_n_n none _ _ (ix2 p q)).trans ?_
  rw [← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 p q) ((contrEquiv1 dot_S1024x256_S256x2048_S1024x2048_1_0_0_1_n_n 256 rfl rfl).symm k) = ix2 p k := funext fun a => Fin.ext (by
    match a with
    | ⟨0, _⟩ => exact lhs_0 _ _
    | ⟨1, _⟩ => exact (lhs_1 _ _).trans hk)
  have er : dot_S1024x256_S256x2048_S1024x2048_1_0_0_1_n_n.rhsIdx (ix2 p q) ((contrEquiv1 dot_S1024x256_S256x2048_S1024x2048_1_0_0_1_n_n 256 rfl rfl).symm k) = ix2 k q := funext fun a => Fin.ext (by
    match a with
    | ⟨0, _⟩ => exact (rhs_0 _ _).trans hk
    | ⟨1, _⟩ => exact rhs_1 _ _)
  rw [el, er, shapeCast_self, shapeCast_self, transpose_ix2_apply]

/-! ## The row sums -/

/-- The sum over the tile's 2048 columns, at row p. -/
theorem laneSum (src : FVec Ideal S1024x2048 .f32) (p : Fin 1024) :
    multiReduction .add [1] S1024 src 0x00000000#32 reduces_S1024x2048_S1024 (.inl rfl) rfl (ix1 p) = ∑ q : Fin 2048, src (ix2 p q) := by
  refine (Ideal.multiReduction_add_single src 0x00000000#32 reduces_S1024x2048_S1024 (.inl rfl) rfl (ix1 p)).trans ?_
  refine Finset.sum_congr rfl fun q _ => congrArg src (funext fun a => Fin.ext ?_)
  match a with
  | ⟨0, _⟩ => rfl
  | ⟨1, _⟩ => rfl

/-- The word that says whether entry (p, q) of the tile at point `i` lies on the diagonal, as the body computes it:
    the row's global index 1024·i₀ + p against the column's 2048·i₁ + q, in 32-bit words. -/
def diagMask (i : grid0.Coords) : IVec S1024x2048 1 :=
  cmpi .eq (addi (broadcast S1024x2048 (Scalar.muli (BitVec.ofNat 32 (i 0).val) 1024#32)) (iota .tc S1024x2048 32 [0] iota_S1024x2048_d0_w32))
    (addi (broadcast S1024x2048 (Scalar.muli (BitVec.ofNat 32 (i 1).val) 2048#32)) (iota .tc S1024x2048 32 [1] iota_S1024x2048_d1_w32))

/-- THE UNMASKED STEP at row p: the accumulator's entry plus the sum over the tile's columns of exp(2·s). -/
theorem pay4_apply (v6 : FVec Ideal S2048x256 .bf16) (v8 : FVec Ideal S1024x256 .bf16) (a : FVec Ideal S1024x1 .f32) (p : Fin 1024) (u : Fin 1) :
    k0_pay4 (F := Ideal) v6 v8 a (ix2 p u)
      = a (ix2 p u) + ∑ q : Fin 2048, Ideal.exp (k0_pay2 (F := Ideal) v6 v8 (ix2 p q) * Ideal.ofBits .f32 0x40000000#32) := by
  unfold k0_pay4
  dsimp only
  rw [shapeCast_self, addf_apply, shapeCast_a_a1_apply]
  refine congrArg (a (ix2 p u) + ·) ?_
  refine (laneSum _ p).trans ?_
  rfl

/-- THE MASKED STEP at row p: the same with s put to zero where the mask word is set. -/
theorem pay3_apply (i : grid0.Coords) (v6 : FVec Ideal S2048x256 .bf16) (v8 : FVec Ideal S1024x256 .bf16) (a : FVec Ideal S1024x1 .f32) (p : Fin 1024) (u : Fin 1) :
    k0_pay3 (F := Ideal) i v6 v8 a (ix2 p u)
      = a (ix2 p u) + ∑ q : Fin 2048, Ideal.exp (Scalar.select (diagMask i (ix2 p q)) (Ideal.ofBits .f32 0x00000000#32) (k0_pay2 (F := Ideal) v6 v8 (ix2 p q))
          * Ideal.ofBits .f32 0x40000000#32) := by
  unfold k0_pay3
  dsimp only
  rw [shapeCast_self, addf_apply, shapeCast_a_a1_apply]
  refine congrArg (a (ix2 p u) + ·) ?_
  refine (laneSum _ p).trans ?_
  rfl

/-- The similarity the step uses at (p, q), zeroed where the tile can meet the diagonal and the mask word is set. -/
def tileVal (i : grid0.Coords) (x2 : FVec Ideal S1024x256 .bf16) (x3 : FVec Ideal S8192x256 .bf16) (p : Fin 1024) (q : Fin 2048) : EReal :=
  if cond2 i then Scalar.select (diagMask i (ix2 p q)) (Ideal.ofBits .f32 0x00000000#32) (∑ k : Fin 256, x2 (ix2 p k) * kblk (F := Ideal) i x3 (ix2 q k))
  else ∑ k : Fin 256, x2 (ix2 p k) * kblk (F := Ideal) i x3 (ix2 q k)

/-- THE STEP at row p: the entering accumulator's entry plus the sum over the tile's columns of exp(2·tileVal). -/
theorem accOut_apply (i : grid0.Coords) (x2 : FVec Ideal S1024x256 .bf16) (x3 : FVec Ideal S8192x256 .bf16) (xs : FVec Ideal S1024x1 .f32) (p : Fin 1024) (u : Fin 1) :
    accOut (F := Ideal) i x2 x3 xs (ix2 p u)
      = accIn (F := Ideal) i xs (ix2 p u) + ∑ q : Fin 2048, Ideal.exp (tileVal i x2 x3 p q * Ideal.ofBits .f32 0x40000000#32) := by
  unfold accOut tileVal
  by_cases h : cond2 i
  · rw [if_pos h, pay3_apply]
    refine congrArg (_ + ·) (Finset.sum_congr rfl fun q _ => ?_)
    rw [if_pos h, pay2_apply]
  · rw [if_neg h, pay4_apply]
    refine congrArg (_ + ·) (Finset.sum_congr rfl fun q _ => ?_)
    rw [if_neg h, pay2_apply]

/-- The zeroed accumulator's entries. -/
theorem pay1_apply (j : S1024x1.Idx) : k0_pay1 (F := Ideal) j = Ideal.ofBits .f32 0x00000000#32 := by
  unfold k0_pay1
  rw [shapeCast_self]
  rfl

end Cert.KernelIdeal.Body

end
-- ==== Proof.KernelIdeal.Value.lean ====
import proofs.«110532_j65867618451797_2_alg».proof.Proof.KernelIdeal.Run
import Idealize.ShloMosaic.Lib.StableHlo.Run
import Idealize.ShloMosaic.PureOps.Ideal.Laws
import Idealize.ShloMosaic.Lib.ValueIdx
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The result as a function of the normalized matrix and the denominators -/

/-- The rows' positive-pair similarities, the second half of the rows repeating the first: row r of the first half
    against row r + 4096. -/
def posK (n : FVec F S8192x256 .f32) : FVec F S8192 .f32 :=
  concatenate S8192 0
    [⟨S4096, Host.reduceAdd (mulf (extractStridedSlice S4096x256 ![0, 0] n slices_S8192x256_S4096x256_0_0)
        (extractStridedSlice S4096x256 ![4096, 0] n slices_S8192x256_S4096x256_4096_0))
        (constant S_ .f32 0x00000000#32) reducesTo_S4096x256_S4096_d1 h_S_⟩,
     ⟨S4096, Host.reduceAdd (mulf (extractStridedSlice S4096x256 ![0, 0] n slices_S8192x256_S4096x256_0_0)
        (extractStridedSlice S4096x256 ![4096, 0] n slices_S8192x256_S4096x256_4096_0))
        (constant S_ .f32 0x00000000#32) reducesTo_S4096x256_S4096_d1 h_S_⟩]
    concatenates_S4096_S4096_S8192_d0

/-- The loss from the positives and the denominators: the mean over the rows of −log(exp(pos / 0.5) / den). -/
def lossOf (pos den : FVec F S8192 .f32) : FVec F S_ .f32 :=
  Host.divf
    (Host.reduceAdd
      (Host.negf (Host.log (Host.divf
        (Host.exp (Host.divf pos (broadcastInDim S8192 ![] bcast_S_S8192 (constant S_ .f32 0x3F000000#32))))
        den)))
      (constant S_ .f32 0x00000000#32) reducesTo_S8192_S_d0 h_S_)
    (constant S_ .f32 0x46000000#32)

/-- The kernel's column of denominators as a vector. -/
def denOf (D : FVec F S8192x1 .f32) : FVec F S8192 .f32 := shapeCast S8192 D shapeCasts_S8192x1_S8192

/-- What the result buffer holds at the end: the loss of the positives of the normalized matrix and the kernel's
    denominators. -/
theorem result_eq (c : Dev nD) :
    W2 m c (Proc.devRef .tc main_v21) = lossOf (posK (V m c main_v5)) (denOf ((dats m 0 c).arrAt 2 cfg0.N)) := by
  show StableHlo.after hostOps1 (W1 m c) (Proc.devRef .tc main_v21) = _
  after_results
  rw [W1_of_ne m c main_v5 (by decide), W1_v7]
  rfl

/-- The matrix of the rows of both arguments, one above the other. -/
def rowsOf (x0 x1 : FVec F S4096x256 .f32) : FVec F S8192x256 .f32 :=
  concatenate S8192x256 0 [⟨S4096x256, x0⟩, ⟨S4096x256, x1⟩] concatenates_S4096x256_S4096x256_S8192x256_d0

/-- Its rows divided by their norms, the norms clamped from below. -/
def normalize (a : FVec F S8192x256 .f32) : FVec F S8192x256 .f32 :=
  Host.divf a (broadcastInDim S8192x256 ![0, 1] bcast_S8192x1_S8192x256_0_1
    (maximumf (Host.sqrt (broadcastInDim S8192x1 ![0] bcast_S8192_S8192x1_0
        (Host.reduceAdd (mulf a a) (constant S_ .f32 0x00000000#32) reducesTo_S8192x256_S8192_d1 h_S_)))
      (broadcastInDim S8192x1 ![] bcast_S_S8192x1 (constant S_ .f32 0x2B8CBCCC#32))))

/-- The region finds the normalized matrix in `main_v5`, -/
theorem V_v5 (c : Dev nD) :
    V m c main_v5 = normalize (rowsOf (m ((c : Thread nD τ).loc main_arg0)) (m ((c : Thread nD τ).loc main_arg1))) := by
  dsimp only [V, V0]
  simp only [hostOps0, hostOps0_1, hostOps0_2, List.flatten_cons, List.flatten_nil, List.append_nil, List.cons_append, List.nil_append]
  after_results
  rfl

/-- and the same, its format changed, in `main_v6`, which both input windows read. -/
theorem V_v6 (c : Dev nD) :
    V m c main_v6 = (truncf .bf16 · bitsLt_bf16_f32) (normalize (rowsOf (m ((c : Thread nD τ).loc main_arg0)) (m ((c : Thread nD τ).loc main_arg1)))) := by
  dsimp only [V, V0]
  simp only [hostOps0, hostOps0_1, hostOps0_2, List.flatten_cons, List.flatten_nil, List.append_nil, List.cons_append, List.nil_append]
  after_results
  rfl

end Cert.KernelIdeal.Body

end
-- ==== Proof.Spec.lean ====
/-
  The contrastive loss's two row vectors as functions of the normalized matrix `n` (8192 rows of 256 entries, the two
  inputs' rows one above the other, each divided by its clamped norm), over the extended reals.

  The similarity of rows r and c is the sum over the 256 columns of the products of their entries. Row r's
  DENOMINATOR is the sum over all 8192 columns c of exp(2 · s), s the similarity of r and c put to zero on the diagonal
  c = r. Row r's POSITIVE is its similarity with the row half the matrix away, r + 4096 (mod 8192).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The matrix's shape and the row vectors'. -/
abbrev SM : Shape := ⟨2, ![8192, 256]⟩
abbrev SV : Shape := ⟨1, ![8192]⟩

/-- The similarity of rows `r` and `c`. -/
def sim (n : FVec Ideal SM .f32) (r c : Fin 8192) : EReal := ∑ k : Fin 256, n (ix2 r k) * n (ix2 c k)

/-- Row `r`'s denominator. -/
def den (n : FVec Ideal SM .f32) (r : Fin 8192) : EReal :=
  ∑ c : Fin 8192, Ideal.exp ((if r = c then 0 else sim n r c) * Ideal.ofBits .f32 0x40000000#32)

/-- The row half the matrix away. -/
def partner (r : Fin 8192) : Fin 8192 := ⟨(r.val + 4096) % 8192, Nat.mod_lt _ (by decide)⟩

/-- Row `r`'s positive. -/
def pos (n : FVec Ideal SM .f32) (r : Fin 8192) : EReal := sim n r (partner r)

/-- The two as vectors. -/
def denV (n : FVec Ideal SM .f32) : FVec Ideal SV .f32 := fun j => den n ⟨(j 0).val, (j 0).isLt⟩
def posV (n : FVec Ideal SM .f32) : FVec Ideal SV .f32 := fun j => pos n ⟨(j 0).val, (j 0).isLt⟩

/-! ## The float words the two programs spell, as the extended reals they denote -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_half : Ideal.ofBits .f32 0x3F000000#32 = ((0.5 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- Dividing by one half is doubling, on every extended real. -/
theorem div_half (x : EReal) : Ideal.div x (Ideal.ofBits .f32 0x3F000000#32) = x * Ideal.ofBits .f32 0x40000000#32 := by
  rw [ofBits_half, ofBits_two, Ideal.div_coe (by norm_num : (0.5 : ℝ) ≠ 0)]
  norm_num

end Cert.Spec

end
-- ==== Proof.KernelIdeal.Den.lean ====
/-
  The kernel's denominators. Row 1024·i + p of the result is row p of the accumulator after the last of row tile i's four
  column tiles; the accumulator starts each row tile at zero and each column tile j adds the sum over its 2048 columns
  q of exp(2·s), s the similarity of rows 1024·i + p and 2048·j + q of the normalized matrix, put to zero where the two
  indices agree (the body tests this only where the tile can meet the diagonal; elsewhere they never agree). The four
  tiles' columns are all 8192 columns, so the row holds the specification's denominator.
-/
import proofs.«110532_j65867618451797_2_alg».proof.Proof.KernelIdeal.Step
import proofs.«110532_j65867618451797_2_alg».proof.Proof.KernelIdeal.Value
import proofs.«110532_j65867618451797_2_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

variable (m : (ℓ : Loc nD τ sig) → Buf (Elt Ideal) ℓ)

/-! ## Where the blocks sit -/

/-- The row window's block at point t starts at row 1024·(t / 4); -/
theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
/-- the resident window's is the whole matrix; -/
theorem idx1 : ∀ t : Fin cfg0.N, win0_1.index t 0 = 0 ∧ win0_1.index t 1 = 0 :=
  (by decide +kernel : ∀ t : Fin grid0.N, win0_1.index t 0 = 0 ∧ win0_1.index t 1 = 0)
/-- the result's at row 1024·(t / 4) again; -/
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
/-- and the body slices the resident matrix from row 2048·(t % 4). -/
theorem off1 : ∀ t : Fin cfg0.N, k0_off1 (grid0.coords t) 0 = 2048 * (t.val % 4) ∧ k0_off1 (grid0.coords t) 1 = 0 :=
  (by decide +kernel : ∀ t : Fin grid0.N, k0_off1 (grid0.coords t) 0 = 2048 * (t.val % 4) ∧ k0_off1 (grid0.coords t) 1 = 0)

/-- The row block at (p, k) is the matrix at row 1024·(t / 4) + p. -/
theorem iblk0_apply (c : Dev nD) (t : Fin cfg0.N) (p : Fin 1024) (k : Fin 256) (hr : 1024 * (t.val / 4) + p.val < 8192) :
    iblk m c 0 t (ix2 p k) = V m c main_v6 (ix2 ⟨1024 * (t.val / 4) + p.val, hr⟩ k) := by
  show V m c main_v6 (((cfg0.win 0).blk t).view.emb (ix2 p k)) = _
  refine congrArg (V m c main_v6) (funext fun a => Fin.ext ?_)
  match a with
  | ⟨0, _⟩ =>
    show win0_0.index t 0 * 1024 + 1 * p.val = 1024 * (t.val / 4) + p.val
    rw [(idx0 t).1]; omega
  | ⟨1, _⟩ =>
    show win0_0.index t 1 * 256 + 1 * k.val = k.val
    rw [(idx0 t).2]; omega

/-- The resident block is the matrix. -/
theorem iblk1_apply (c : Dev nD) (t : Fin cfg0.N) (r : Fin 8192) (k : Fin 256) :
    iblk m c 1 t (ix2 r k) = V m c main_v6 (ix2 r k) := by
  show V m c main_v6 (((cfg0.win 1).blk t).view.emb (ix2 r k)) = _
  refine congrArg (V m c main_v6) (funext fun a => Fin.ext ?_)
  match a with
  | ⟨0, _⟩ =>
    show win0_1.index t 0 * 8192 + 1 * r.val = r.val
    rw [(idx1 t).1]; omega
  | ⟨1, _⟩ =>
    show win0_1.index t 1 * 256 + 1 * k.val = k.val
    rw [(idx1 t).2]; omega

/-- The column block the body slices at point t is, at (q, k), the matrix at row 2048·(t % 4) + q. -/
theorem kblk_apply (t : Fin cfg0.N) (x3 : FVec Ideal S8192x256 .bf16) (q : Fin 2048) (k : Fin 256) (hr : 2048 * (t.val % 4) + q.val < 8192) :
    kblk (F := Ideal) (grid0.coords t) x3 (ix2 q k) = x3 (ix2 ⟨2048 * (t.val % 4) + q.val, hr⟩ k) := by
  unfold kblk
  refine congrArg x3 (funext fun a => Fin.ext ?_)
  match a with
  | ⟨0, _⟩ =>
    show k0_off1 (grid0.coords t) 0 + 1 * q.val = 2048 * (t.val % 4) + q.val
    rw [(off1 t).1]; omega
  | ⟨1, _⟩ =>
    show k0_off1 (grid0.coords t) 1 + 1 * k.val = k.val
    rw [(off1 t).2]; omega

/-! ## The mask word is the comparison of the two global indices -/

theorem ofBool_eq_one (b : Bool) : BitVec.ofBool b = 1#1 ↔ b = true := by cases b <;> decide

/-- Below the word size the comparison of the words is the comparison of the numbers. -/
theorem mask_word (a b p q : ℕ) (ha : a < 8) (hb : b < 4) (hp : p < 1024) (hq : q < 2048) :
    IntOp.cmpi .eq (IntOp.addi (IntOp.muli (BitVec.ofNat 32 a) 1024#32) (BitVec.ofNat 32 p))
      (IntOp.addi (IntOp.muli (BitVec.ofNat 32 b) 2048#32) (BitVec.ofNat 32 q)) = 1#1 ↔ 1024 * a + p = 2048 * b + q := by
  show BitVec.ofBool ((BitVec.ofNat 32 a * 1024#32 + BitVec.ofNat 32 p) == (BitVec.ofNat 32 b * 2048#32 + BitVec.ofNat 32 q)) = 1#1 ↔ _
  rw [ofBool_eq_one, beq_iff_eq, ← BitVec.toNat_inj]
  simp only [BitVec.toNat_add, BitVec.toNat_mul, BitVec.toNat_ofNat]
  omega

/-- The grid's coordinates at point t. -/
theorem coords_val : ∀ t : Fin cfg0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)
/-- The tile can meet the diagonal exactly when its column tile is half its row tile. -/
theorem hcond2 : ∀ t : Fin cfg0.N, cond2 (grid0.coords t) ↔ t.val % 4 = t.val / 4 / 2 :=
  (by decide +kernel : ∀ t : Fin grid0.N, cond2 (grid0.coords t) ↔ t.val % 4 = t.val / 4 / 2)

theorem diagMask_iff (t : Fin cfg0.N) (p : Fin 1024) (q : Fin 2048) :
    diagMask (grid0.coords t) (ix2 p q) = 1#1 ↔ 1024 * (t.val / 4) + p.val = 2048 * (t.val % 4) + q.val := by
  have hN : t.val < 32 := lt_of_lt_of_eq t.isLt (show cfg0.N = 32 from N_0)
  unfold diagMask
  show IntOp.cmpi .eq (IntOp.addi (Scalar.muli (BitVec.ofNat 32 ((grid0.coords t) 0).val) 1024#32) (iota .tc S1024x2048 32 [0] iota_S1024x2048_d0_w32 (ix2 p q)))
      (IntOp.addi (Scalar.muli (BitVec.ofNat 32 ((grid0.coords t) 1).val) 2048#32) (iota .tc S1024x2048 32 [1] iota_S1024x2048_d1_w32 (ix2 p q))) = 1#1 ↔ _
  rw [iota_single_apply, iota_single_apply, (coords_val t).1, (coords_val t).2]
  exact mask_word _ _ _ _ (by omega) (by omega) p.isLt q.isLt

/-! ## The step at a point, in closed form -/

/-- The normalized matrix as both input windows find it. -/
abbrev n6 (c : Dev nD) : FVec Ideal S8192x256 .bf16 := V m c main_v6

/-- The similarity the step at point t uses at (p, q): zero where the two global indices agree, else the sum over the
    columns of the products of the matrix's rows 1024·a + p and 2048·b + q (a the row tile, b the column tile). -/
theorem tileVal_eq (c : Dev nD) (t : Fin cfg0.N) (a b : ℕ) (ha : t.val / 4 = a) (hb : t.val % 4 = b) (p : Fin 1024) (q : Fin 2048)
    (hr : 1024 * a + p.val < 8192) (hc : 2048 * b + q.val < 8192) :
    tileVal (grid0.coords t) (iblk m c 0 t) (iblk m c 1 t) p q
      = if 1024 * a + p.val = 2048 * b + q.val then Ideal.ofBits .f32 0x00000000#32
        else ∑ k : Fin 256, n6 m c (ix2 ⟨1024 * a + p.val, hr⟩ k) * n6 m c (ix2 ⟨2048 * b + q.val, hc⟩ k) := by
  subst ha hb
  have hN : t.val < 32 := lt_of_lt_of_eq t.isLt (show cfg0.N = 32 from N_0)
  have hS : (fun (x2 : FVec Ideal S1024x256 .bf16) (x3 : FVec Ideal S8192x256 .bf16) =>
        ∑ k : Fin 256, x2 (ix2 p k) * kblk (F := Ideal) (grid0.coords t) x3 (ix2 q k)) (iblk m c 0 t) (iblk m c 1 t)
      = ∑ k : Fin 256, n6 m c (ix2 ⟨1024 * (t.val / 4) + p.val, hr⟩ k) * n6 m c (ix2 ⟨2048 * (t.val % 4) + q.val, hc⟩ k) :=
    Finset.sum_congr rfl fun k _ => by rw [iblk0_apply m c t p k hr, kblk_apply t (iblk m c 1 t) q k hc, iblk1_apply]
  beta_reduce at hS
  unfold tileVal
  rw [hS]
  by_cases h2 : cond2 (grid0.coords t)
  · rw [if_pos h2]
    unfold Scalar.select
    have hw : diagMask (grid0.coords t) (ix2 p q) = 1 ↔ 1024 * (t.val / 4) + p.val = 2048 * (t.val % 4) + q.val := diagMask_iff t p q
    by_cases hd : 1024 * (t.val / 4) + p.val = 2048 * (t.val % 4) + q.val
    · rw [if_pos (hw.mpr hd), if_pos hd]
    · rw [if_neg (fun h => hd (hw.mp h)), if_neg hd]
  · rw [if_neg h2, if_neg]
    have h2' : ¬ (t.val % 4 = t.val / 4 / 2) := fun h => h2 ((hcond2 t).mpr h)
    have := p.isLt; have := q.isLt
    omega

/-- The step's sum at point t, row p. -/
def TS (c : Dev nD) (t : Fin cfg0.N) (p : Fin 1024) : EReal :=
  ∑ q : Fin 2048, Ideal.exp (tileVal (grid0.coords t) (iblk m c 0 t) (iblk m c 1 t) p q * Ideal.ofBits .f32 0x40000000#32)

/-- A point that resets the accumulator leaves the step's sum over zero; -/
theorem accAt_reset (c : Dev nD) (n : ℕ) (hn : n < cfg0.N) (h0 : n % 4 = 0) (p : Fin 1024) (u : Fin 1) :
    accAt m c n hn (ix2 p u) = Ideal.ofBits .f32 0x00000000#32 + TS m c ⟨n, hn⟩ p := by
  have hpay : accIn (F := Ideal) (grid0.coords ⟨n, hn⟩) = fun _ => k0_pay1 (F := Ideal) := by
    funext xs; unfold accIn; rw [if_pos ((hcond1 ⟨n, hn⟩).mpr h0)]
  cases n with
  | zero =>
    refine (accOut_apply (grid0.coords ⟨0, hn⟩) (iblk m c 0 ⟨0, hn⟩) (iblk m c 1 ⟨0, hn⟩) k0_pay1 p u).trans ?_
    simp only [hpay, pay1_apply]; rfl
  | succ n =>
    refine (accOut_apply (grid0.coords ⟨n + 1, hn⟩) (iblk m c 0 ⟨n + 1, hn⟩) (iblk m c 1 ⟨n + 1, hn⟩) (accAt m c n (Nat.lt_of_succ_lt hn)) p u).trans ?_
    simp only [hpay, pay1_apply]; rfl

/-- any other adds it to what the point before left. -/
theorem accAt_succ (c : Dev nD) (n : ℕ) (hn : n + 1 < cfg0.N) (h0 : (n + 1) % 4 ≠ 0) (p : Fin 1024) (u : Fin 1) :
    accAt m c (n + 1) hn (ix2 p u) = accAt m c n (Nat.lt_of_succ_lt hn) (ix2 p u) + TS m c ⟨n + 1, hn⟩ p := by
  refine (accOut_apply (grid0.coords ⟨n + 1, hn⟩) (iblk m c 0 ⟨n + 1, hn⟩) (iblk m c 1 ⟨n + 1, hn⟩) (accAt m c n (Nat.lt_of_succ_lt hn)) p u).trans ?_
  unfold accIn
  rw [if_neg (fun h => h0 ((hcond1 ⟨n + 1, hn⟩).mp h))]; rfl

/-- After the four column tiles of row tile i the accumulator's row p holds the four sums, added from zero. -/
theorem acc_row (c : Dev nD) (i : Fin 8) (p : Fin 1024) (u : Fin 1)
    (h0 : 4 * i.val < cfg0.N) (h1 : 4 * i.val + 1 < cfg0.N) (h2 : 4 * i.val + 2 < cfg0.N) (h3 : 4 * i.val + 3 < cfg0.N) :
    accAt m c (4 * i.val + 3) h3 (ix2 p u)
      = Ideal.ofBits .f32 0x00000000#32 + TS m c ⟨4 * i.val, h0⟩ p + TS m c ⟨4 * i.val + 1, h1⟩ p + TS m c ⟨4 * i.val + 2, h2⟩ p
        + TS m c ⟨4 * i.val + 3, h3⟩ p := by
  rw [accAt_succ m c (4 * i.val + 2) h3 (by omega) p u, accAt_succ m c (4 * i.val + 1) h2 (by omega) p u,
    accAt_succ m c (4 * i.val) h1 (by omega) p u, accAt_reset m c (4 * i.val) h0 (by omega) p u]

/-! ## All 8192 columns are the four tiles' columns -/

/-- A sum over the 8192 columns is the sum over the four column tiles of the sums over their 2048 columns. -/
theorem sum_cols (f : Fin 8192 → EReal) :
    ∑ col : Fin 8192, f col = ∑ j : Fin 4, ∑ q : Fin 2048, f ⟨2048 * j.val + q.val, by have := j.isLt; have := q.isLt; omega⟩ := by
  rw [← Equiv.sum_comp (finProdFinEquiv (m := 4) (n := 2048)) f, Fintype.sum_prod_type]
  refine Finset.sum_congr rfl fun j _ => Finset.sum_congr rfl fun q _ => congrArg f (Fin.ext ?_)
  show q.val + 2048 * j.val = 2048 * j.val + q.val
  omega

/-! ## The kernel's denominators are the specification's -/

/-- A column cast to a vector reads, at r, the operand at (r, 0). -/
theorem shapeCast_a1_a_apply {β : Type} {a : ℕ} (x : (⟨2, ![a, 1]⟩ : Shape).Idx → β) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Among the points that write the result back, the block index tells the point. -/
theorem idx_inj_flush : ∀ t t' : Fin cfg0.N, (cfg0.win 2).flush t = true → (cfg0.win 2).flush t' = true → win0_2.index t = win0_2.index t' → t = t' :=
  (by decide +kernel : ∀ t t' : Fin grid0.N, win0_2.flush t = true → win0_2.flush t' = true → win0_2.index t = win0_2.index t' → t = t')
/-- So two such points' blocks share no element of the result. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (idx_inj_flush t t' hf hf' h)

/-- Row 1024·i + p of the result ends at row p of the accumulator after the last column tile of row tile i. -/
theorem D_row (c : Dev nD) (i : Fin 8) (p : Fin 1024) (h3 : 4 * i.val + 3 < cfg0.N) (hr : 1024 * i.val + p.val < 8192) :
    (dats m 0 c).arrAt 2 cfg0.N (ix2 ⟨1024 * i.val + p.val, hr⟩ (0 : Fin 1)) = accAt m c (4 * i.val + 3) h3 (ix2 p (0 : Fin 1)) := by
  have hf : (cfg0.win 2).flush ⟨4 * i.val + 3, h3⟩ = true := (flush0_2 _).mpr (by show (4 * i.val + 3) % 4 = 3; omega)
  have e := (dats m 0 c).arrAt_emb_eq_flushed 2 disjoint2 ⟨4 * i.val + 3, h3⟩ hf (ix2 p (0 : Fin 1))
  have hemb : ((cfg0.win 2).blk ⟨4 * i.val + 3, h3⟩).view.emb (ix2 p (0 : Fin 1)) = ix2 ⟨1024 * i.val + p.val, hr⟩ (0 : Fin 1) :=
    funext fun a => Fin.ext (by
      match a with
      | ⟨0, _⟩ =>
        show win0_2.index ⟨4 * i.val + 3, h3⟩ 0 * 1024 + 1 * p.val = 1024 * i.val + p.val
        rw [(idx2 _).1]; show (4 * i.val + 3) / 4 * 1024 + 1 * p.val = _; omega
      | ⟨1, _⟩ =>
        show win0_2.index ⟨4 * i.val + 3, h3⟩ 1 * 1 + 1 * 0 = 0
        rw [(idx2 _).2])
  rw [← hemb, e]
  show (dats m 0 c).after 2 ⟨4 * i.val + 3, h3⟩ (ix2 p (0 : Fin 1)) = _
  rw [after2]

/-- The step's sum at the point of row tile i and column tile j, row p, over the matrix. -/
theorem TS_eq (c : Dev nD) (i : Fin 8) (j : Fin 4) (p : Fin 1024) (h : 4 * i.val + j.val < cfg0.N) (hr : 1024 * i.val + p.val < 8192) :
    TS m c ⟨4 * i.val + j.val, h⟩ p
      = ∑ q : Fin 2048, Ideal.exp ((if (⟨1024 * i.val + p.val, hr⟩ : Fin 8192) = ⟨2048 * j.val + q.val, by have := j.isLt; have := q.isLt; omega⟩ then 0
          else Cert.Spec.sim (n6 m c) ⟨1024 * i.val + p.val, hr⟩ ⟨2048 * j.val + q.val, by have := j.isLt; have := q.isLt; omega⟩) * Ideal.ofBits .f32 0x40000000#32) := by
  unfold TS
  refine Finset.sum_congr rfl fun q _ => ?_
  have hc : 2048 * j.val + q.val < 8192 := by have := j.isLt; have := q.isLt; omega
  rw [tileVal_eq m c ⟨4 * i.val + j.val, h⟩ i.val j.val (by show (4 * i.val + j.val) / 4 = i.val; have := j.isLt; omega)
    (by show (4 * i.val + j.val) % 4 = j.val; have := j.isLt; omega) p q hr hc]
  by_cases hd : 1024 * i.val + p.val = 2048 * j.val + q.val
  · rw [if_pos hd, if_pos (Fin.ext hd), Cert.Spec.ofBits_zero]
  · rw [if_neg hd, if_neg (fun e => hd (congrArg Fin.val e))]
    rfl

/-- THE DENOMINATORS the kernel leaves are those of the normalized matrix. -/
theorem den_eq (c : Dev nD) : denOf ((dats m 0 c).arrAt 2 cfg0.N) = Cert.Spec.denV (n6 m c) := by
  have hN : cfg0.N = 32 := N_0
  funext j
  obtain ⟨r, rfl⟩ : ∃ r : Fin 8192, j = ix1 r := ⟨j 0, eq_ix1 j⟩
  unfold denOf
  rw [shapeCast_a1_a_apply]
  obtain ⟨i, p, hr, rfl⟩ : ∃ (i : Fin 8) (p : Fin 1024) (hr : 1024 * i.val + p.val < 8192), r = ⟨1024 * i.val + p.val, hr⟩ :=
    ⟨⟨r.val / 1024, by have := r.isLt; omega⟩, ⟨r.val % 1024, Nat.mod_lt _ (by decide)⟩, by have := r.isLt; show 1024 * (r.val / 1024) + r.val % 1024 < 8192; omega,
      Fin.ext (by show r.val = 1024 * (r.val / 1024) + r.val % 1024; omega)⟩
  have h0 : 4 * i.val < cfg0.N := by have := i.isLt; omega
  have h1 : 4 * i.val + 1 < cfg0.N := by have := i.isLt; omega
  have h2 : 4 * i.val + 2 < cfg0.N := by have := i.isLt; omega
  have h3 : 4 * i.val + 3 < cfg0.N := by have := i.isLt; omega
  rw [D_row m c i p h3 hr, acc_row m c i p 0 h0 h1 h2 h3]
  show _ = Cert.Spec.den (n6 m c) ⟨1024 * i.val + p.val, hr⟩
  unfold Cert.Spec.den
  have e0 := TS_eq m c i 0 p h0 hr
  have e1 := TS_eq m c i 1 p h1 hr
  have e2 := TS_eq m c i 2 p h2 hr
  have e3 := TS_eq m c i 3 p h3 hr
  rw [sum_cols, Fin.sum_univ_four, Cert.Spec.ofBits_zero, zero_add, ← e0, ← e1, ← e2, ← e3]
  rfl

end Cert.KernelIdeal.Body

end
-- ==== Proof.RefPos.lean ====
/-
  The reference's positives: the two diagonals of the similarity matrix at offsets ±4096, one after the other, are
  each row's similarity with the row half the matrix away.
-/
import proofs.«110532_j65867618451797_2_alg».proof.Proof.Gen.ReferenceIdeal.Read
import proofs.«110532_j65867618451797_2_alg».proof.Proof.Spec
import Idealize.ShloMosaic.Lib.ValueIdx
import Idealize.ShloMosaic.Lib.Pipeline.Value
import Idealize.ShloMosaic.PureOps.Ideal.Laws

noncomputable section

namespace Cert.RefPos

open Cert.ReferenceIdeal Cert.ReferenceIdeal.Gen Cert.ReferenceIdeal.Read
open Idealize.ShloMosaic Idealize.ShloMosaic.ValueIdx
open scoped BigOperators

/-! ## Index words: a small natural as a 32-bit word -/

/-- A natural below 2^31 as a 32-bit word, read back signed, is itself. -/
theorem toInt_ofNat_small (m : Nat) (hm : m < 2147483648) : (BitVec.ofNat 32 m).toInt = (m : Int) := by
  rw [BitVec.toInt_eq_toNat_cond, BitVec.toNat_ofNat]
  have h : m % 2 ^ 32 = m := Nat.mod_eq_of_lt (by omega)
  rw [h, if_pos (by omega)]

/-- Such a word is not negative: the signed comparison with zero is the bit 0. -/
theorem cmpi_slt_zero (m : Nat) (hm : m < 2147483648) : IntOp.cmpi .slt (BitVec.ofNat 32 m) 0#32 = 0#1 := by
  show BitVec.ofBool ((BitVec.ofNat 32 m).slt 0#32) = 0#1
  have h : (BitVec.ofNat 32 m).slt 0#32 = false := by
    unfold BitVec.slt
    rw [toInt_ofNat_small m hm]
    simp
  rw [h]; rfl

/-- Read signed and clamped into [0, 8191], a word below 8192 is itself. -/
theorem clamp_ofNat (m : Nat) (hm : m < 8192) : min (BitVec.ofNat 32 m).toInt.toNat (8192 - 1) = m := by
  rw [toInt_ofNat_small m (by omega)]
  simp only [Int.toNat_natCast]
  omega

/-! ## The gather that takes one matrix element per row of an index table -/

/-- Row coordinate of the element the diagonal calls' gather reads for table row `r`: the table's word at `(r, 0)`. -/
theorem gather_coord0 (idx : IVec S4096x2 32) (r : Fin 4096) (a : Nat) (ha : a < 8192)
    (h0 : idx (ix2 r (0 : Fin 2)) = BitVec.ofNat 32 a) :
    (gather_S8192x8192_S4096x2_S4096_n_01_n_n_01_1_11.operandIdx (ix1 r) idx (0 : Fin 2)).val = a := by
  show gather_S8192x8192_S4096x2_S4096_n_01_n_n_01_1_11.start (ix1 r) idx (0 : Fin 2)
      + gather_S8192x8192_S4096x2_S4096_n_01_n_n_01_1_11.batchCoord (ix1 r) (0 : Fin 2)
      + gather_S8192x8192_S4096x2_S4096_n_01_n_n_01_1_11.offCoord (ix1 r) (0 : Fin 2) = a
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S8192x8192_S4096x2_S4096_n_01_n_n_01_1_11.startIndexMap by decide)]
  have hsi : gather_S8192x8192_S4096x2_S4096_n_01_n_n_01_1_11.siIdx (ix1 r)
      ⟨List.idxOf (0 : Fin 2) gather_S8192x8192_S4096x2_S4096_n_01_n_n_01_1_11.startIndexMap,
        List.idxOf_lt_length_iff.2 (by decide)⟩ = ix2 r (0 : Fin 2) := by
    funext b; refine Fin.ext ?_
    match b with
    | ⟨0, _⟩ => rfl
    | ⟨1, _⟩ => rfl
  rw [hsi, h0]
  exact clamp_ofNat a ha

/-- Its column coordinate: the table's word at `(r, 1)`. -/
theorem gather_coord1 (idx : IVec S4096x2 32) (r : Fin 4096) (b : Nat) (hb : b < 8192)
    (h1 : idx (ix2 r (1 : Fin 2)) = BitVec.ofNat 32 b) :
    (gather_S8192x8192_S4096x2_S4096_n_01_n_n_01_1_11.operandIdx (ix1 r) idx (1 : Fin 2)).val = b := by
  show gather_S8192x8192_S4096x2_S4096_n_01_n_n_01_1_11.start (ix1 r) idx (1 : Fin 2)
      + gather_S8192x8192_S4096x2_S4096_n_01_n_n_01_1_11.batchCoord (ix1 r) (1 : Fin 2)
      + gather_S8192x8192_S4096x2_S4096_n_01_n_n_01_1_11.offCoord (ix1 r) (1 : Fin 2) = b
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gather_S8192x8192_S4096x2_S4096_n_01_n_n_01_1_11.startIndexMap by decide)]
  have hsi : gather_S8192x8192_S4096x2_S4096_n_01_n_n_01_1_11.siIdx (ix1 r)
      ⟨List.idxOf (1 : Fin 2) gather_S8192x8192_S4096x2_S4096_n_01_n_n_01_1_11.startIndexMap,
        List.idxOf_lt_length_iff.2 (by decide)⟩ = ix2 r (1 : Fin 2) := by
    funext b; refine Fin.ext ?_
    match b with
    | ⟨0, _⟩ => rfl
    | ⟨1, _⟩ => rfl
  rw [hsi, h1]
  exact clamp_ofNat b hb

/-- The gather of the two diagonal calls, read at row `r` of the table: when the table's row `r` holds the words of
    `a` and `b`, both below 8192, the result is the matrix at `(a, b)` (no clamping happens). -/
theorem gather_pair_apply {α : Type} (x : S8192x8192.Idx → α) (idx : IVec S4096x2 32) (r : Fin 4096)
    (a b : Nat) (ha : a < 8192) (hb : b < 8192)
    (h0 : idx (ix2 r (0 : Fin 2)) = BitVec.ofNat 32 a) (h1 : idx (ix2 r (1 : Fin 2)) = BitVec.ofNat 32 b) :
    Host.gather gather_S8192x8192_S4096x2_S4096_n_01_n_n_01_1_11 x idx (ix1 r)
      = x (ix2 (⟨a, ha⟩ : Fin 8192) (⟨b, hb⟩ : Fin 8192)) := by
  unfold Host.gather
  refine congrArg x (funext fun c => Fin.ext ?_)
  match c with
  | ⟨0, _⟩ => exact gather_coord0 idx r a ha h0
  | ⟨1, _⟩ => exact gather_coord1 idx r b hb h1

/-! ## The two index tables

Each diagonal call builds a 4096×2 table of index words: column 0 the row indices, column 1 the column indices. For
the diagonal at offset +4096 row `r` of the table is `(r, 4096 + r)`; at offset −4096 it is `(4096 + r, r)`. The
"add 8192 if negative" wrap never fires: every index is a small natural. -/

/-- Adding the word of 4096 to the word of `m` is the word of `4096 + m`. -/
theorem addi_4096 (m : Nat) : IntOp.addi 4096#32 (BitVec.ofNat 32 m) = BitVec.ofNat 32 (4096 + m) :=
  (BitVec.ofNat_add 4096 m).symm

theorem tbl1_col0 (r : Fin 4096) :
    val_main_call1_v16 (F := Ideal) (ix2 r (0 : Fin 2)) = BitVec.ofNat 32 r.val := by
  unfold val_main_call1_v16
  refine (concatenate_pair_apply_left 1 _ _ concatenates_S4096x1_S4096x1_S4096x2_d1 (ix2 r (0 : Fin 2)) rfl
    (ix2 r (0 : Fin 1)) (fun b => by
      match b with
      | ⟨0, _⟩ => rfl
      | ⟨1, _⟩ => rfl)).trans ?_
  rw [val_main_call1_v14_apply, val_main_call1_v8_apply, val_main_call1_v5_apply, val_main_call1_v0_apply,
    val_main_call1_v4_apply, val_main_call1_c_0_apply]
  show Scalar.select (IntOp.cmpi .slt (BitVec.ofNat 32 r.val) 0#32) _ (BitVec.ofNat 32 r.val) = BitVec.ofNat 32 r.val
  rw [cmpi_slt_zero _ (by have := r.isLt; omega), select_zero]

theorem tbl1_col1 (r : Fin 4096) :
    val_main_call1_v16 (F := Ideal) (ix2 r (1 : Fin 2)) = BitVec.ofNat 32 (4096 + r.val) := by
  unfold val_main_call1_v16
  refine (concatenate_pair_apply_right 1 _ _ concatenates_S4096x1_S4096x1_S4096x2_d1 (ix2 r (1 : Fin 2)) rfl rfl
    (ix2 r (0 : Fin 1)) (fun b hb => by
      match b with
      | ⟨0, _⟩ => rfl
      | ⟨1, _⟩ => exact absurd rfl hb) rfl).trans ?_
  rw [val_main_call1_v15_apply, val_main_call1_v13_apply, val_main_call1_v10_apply, val_main_call1_v3_apply,
    val_main_call1_v2_apply, val_main_call1_c_apply, val_main_call1_v1_apply, val_main_call1_v9_apply,
    val_main_call1_c_2_apply]
  show Scalar.select (IntOp.cmpi .slt (IntOp.addi 4096#32 (BitVec.ofNat 32 r.val)) 0#32) _
    (IntOp.addi 4096#32 (BitVec.ofNat 32 r.val)) = BitVec.ofNat 32 (4096 + r.val)
  rw [addi_4096, cmpi_slt_zero _ (by have := r.isLt; omega), select_zero]

theorem tbl2_col0 (r : Fin 4096) :
    val_main_call2_v16 (F := Ideal) (ix2 r (0 : Fin 2)) = BitVec.ofNat 32 (4096 + r.val) := by
  unfold val_main_call2_v16
  refine (concatenate_pair_apply_left 1 _ _ concatenates_S4096x1_S4096x1_S4096x2_d1 (ix2 r (0 : Fin 2)) rfl
    (ix2 r (0 : Fin 1)) (fun b => by
      match b with
      | ⟨0, _⟩ => rfl
      | ⟨1, _⟩ => rfl)).trans ?_
  rw [val_main_call2_v14_apply, val_main_call2_v8_apply, val_main_call2_v5_apply, val_main_call2_v3_apply,
    val_main_call2_v2_apply, val_main_call2_c_apply, val_main_call2_v1_apply, val_main_call2_v4_apply,
    val_main_call2_c_0_apply]
  show Scalar.select (IntOp.cmpi .slt (IntOp.addi 4096#32 (BitVec.ofNat 32 r.val)) 0#32) _
    (IntOp.addi 4096#32 (BitVec.ofNat 32 r.val)) = BitVec.ofNat 32 (4096 + r.val)
  rw [addi_4096, cmpi_slt_zero _ (by have := r.isLt; omega), select_zero]

theorem tbl2_col1 (r : Fin 4096) :
    val_main_call2_v16 (F := Ideal) (ix2 r (1 : Fin 2)) = BitVec.ofNat 32 r.val := by
  unfold val_main_call2_v16
  refine (concatenate_pair_apply_right 1 _ _ concatenates_S4096x1_S4096x1_S4096x2_d1 (ix2 r (1 : Fin 2)) rfl rfl
    (ix2 r (0 : Fin 1)) (fun b hb => by
      match b with
      | ⟨0, _⟩ => rfl
      | ⟨1, _⟩ => exact absurd rfl hb) rfl).trans ?_
  rw [val_main_call2_v15_apply, val_main_call2_v13_apply, val_main_call2_v10_apply, val_main_call2_v0_apply,
    val_main_call2_v9_apply, val_main_call2_c_2_apply]
  show Scalar.select (IntOp.cmpi .slt (BitVec.ofNat 32 r.val) 0#32) _ (BitVec.ofNat 32 r.val) = BitVec.ofNat 32 r.val
  rw [cmpi_slt_zero _ (by have := r.isLt; omega), select_zero]

/-! ## The two diagonals, the similarity matrix, and the concatenation -/

/-- The diagonal at offset +4096: entry `r` is the similarity matrix at `(r, 4096 + r)`. -/
theorem diag_up (x0 x1 : (⟨S4096x256, .f32⟩ : BufTy).Contents (Elt Ideal)) (r : Fin 4096) :
    val_main_v8 (F := Ideal) x0 x1 (ix1 r)
      = val_main_v7 (F := Ideal) x0 x1
          (ix2 (⟨r.val, by have := r.isLt; omega⟩ : Fin 8192) (⟨4096 + r.val, by have := r.isLt; omega⟩ : Fin 8192)) := by
  unfold val_main_v8
  exact gather_pair_apply _ _ r r.val (4096 + r.val) _ _ (tbl1_col0 r) (tbl1_col1 r)

/-- The diagonal at offset −4096: entry `r` is the similarity matrix at `(4096 + r, r)`. -/
theorem diag_down (x0 x1 : (⟨S4096x256, .f32⟩ : BufTy).Contents (Elt Ideal)) (r : Fin 4096) :
    val_main_v9 (F := Ideal) x0 x1 (ix1 r)
      = val_main_v7 (F := Ideal) x0 x1
          (ix2 (⟨4096 + r.val, by have := r.isLt; omega⟩ : Fin 8192) (⟨r.val, by have := r.isLt; omega⟩ : Fin 8192)) := by
  unfold val_main_v9
  exact gather_pair_apply _ _ r (4096 + r.val) r.val _ _ (tbl2_col0 r) (tbl2_col1 r)

/-- The product of the normalized matrix with its transpose, at `(a, b)`, is the similarity of rows `a` and `b`. -/
theorem v7_sim (x0 x1 : (⟨S4096x256, .f32⟩ : BufTy).Contents (Elt Ideal)) (a b : Fin 8192) :
    val_main_v7 (F := Ideal) x0 x1 (ix2 a b) = Cert.Spec.sim (val_main_v5 (F := Ideal) x0 x1) a b := by
  rw [val_main_v7_apply]
  unfold Cert.Spec.sim
  refine Finset.sum_congr rfl fun k _ => ?_
  rw [val_main_v6_apply]
  have e1 : lidx_main_v7 (ix2 a b) k = ix2 a k :=
    funext fun c => Fin.ext (by match c with | ⟨0, _⟩ => rfl | ⟨1, _⟩ => rfl)
  have e2 : idx_main_v6 (ridx_main_v7 (ix2 a b) k) = ix2 b k :=
    funext fun c => Fin.ext (by match c with | ⟨0, _⟩ => rfl | ⟨1, _⟩ => rfl)
  rw [e1, e2]

/-- The concatenation of the two diagonals at a row below 4096 is the first diagonal there … -/
theorem v10_lo (x0 x1 : (⟨S4096x256, .f32⟩ : BufTy).Contents (Elt Ideal)) (r : Fin 8192) (h : r.val < 4096) :
    val_main_v10 (F := Ideal) x0 x1 (ix1 r) = val_main_v8 (F := Ideal) x0 x1 (ix1 (⟨r.val, h⟩ : Fin 4096)) := by
  unfold val_main_v10
  exact concatenate_pair_apply_left 0 _ _ concatenates_S4096_S4096_S8192_d0 (ix1 r) rfl (ix1 (⟨r.val, h⟩ : Fin 4096))
    (fun b => by match b with | ⟨0, _⟩ => rfl)

/-- … and at a row from 4096 on the second diagonal, 4096 rows up. -/
theorem v10_hi (x0 x1 : (⟨S4096x256, .f32⟩ : BufTy).Contents (Elt Ideal)) (r : Fin 8192) (h : 4096 ≤ r.val) :
    val_main_v10 (F := Ideal) x0 x1 (ix1 r)
      = val_main_v9 (F := Ideal) x0 x1 (ix1 (⟨r.val - 4096, by have := r.isLt; omega⟩ : Fin 4096)) := by
  unfold val_main_v10
  exact concatenate_pair_apply_right 0 _ _ concatenates_S4096_S4096_S8192_d0 (ix1 r) rfl rfl
    (ix1 (⟨r.val - 4096, by have := r.isLt; omega⟩ : Fin 4096))
    (fun b hb => by match b with | ⟨0, _⟩ => exact absurd rfl hb)
    (by show r.val - 4096 + 4096 = r.val; omega)

/-! ## The claim -/

theorem ref_pos (x0 x1 : (⟨S4096x256, .f32⟩ : BufTy).Contents (Elt Ideal)) :
    val_main_v10 (F := Ideal) x0 x1 = Cert.Spec.posV (val_main_v5 (F := Ideal) x0 x1) := by
  funext j
  obtain ⟨r, rfl⟩ : ∃ r : Fin 8192, j = ix1 r := ⟨j 0, eq_ix1 j⟩
  show val_main_v10 (F := Ideal) x0 x1 (ix1 r)
    = Cert.Spec.sim (val_main_v5 (F := Ideal) x0 x1) r (Cert.Spec.partner r)
  by_cases h : r.val < 4096
  · -- a row of the first half: its partner is 4096 rows down
    rw [v10_lo x0 x1 r h, diag_up, v7_sim]
    have hp : Cert.Spec.partner r = (⟨4096 + r.val, by omega⟩ : Fin 8192) :=
      Fin.ext (by show (r.val + 4096) % 8192 = 4096 + r.val; omega)
    rw [hp]
  · -- a row of the second half: its partner is 4096 rows up
    have h' : 4096 ≤ r.val := Nat.le_of_not_lt h
    have hr := r.isLt
    rw [v10_hi x0 x1 r h', diag_down, v7_sim]
    have hp : Cert.Spec.partner r = (⟨r.val - 4096, by omega⟩ : Fin 8192) :=
      Fin.ext (by show (r.val + 4096) % 8192 = r.val - 4096; omega)
    have hrow : (⟨4096 + (r.val - 4096), by omega⟩ : Fin 8192) = r := Fin.ext (by show 4096 + (r.val - 4096) = r.val; omega)
    rw [hp]
    exact congrArg (fun a => Cert.Spec.sim (val_main_v5 (F := Ideal) x0 x1) a _) hrow

end Cert.RefPos

end
-- ==== Proof.RefDen.lean ====
/-
  The reference's denominators: each row's sum over all columns of exp of the similarity, zeroed on the diagonal by
  the factor 1 − [row = column], divided by one half.
-/
import proofs.«110532_j65867618451797_2_alg».proof.Proof.Gen.ReferenceIdeal.Read
import proofs.«110532_j65867618451797_2_alg».proof.Proof.Spec
import Idealize.ShloMosaic.Lib.ValueIdx
import Idealize.ShloMosaic.Lib.Pipeline.Value
import Idealize.ShloMosaic.PureOps.Ideal.Laws

noncomputable section

namespace Cert.RefDen

open Cert.ReferenceIdeal Cert.ReferenceIdeal.Gen Cert.ReferenceIdeal.Read
open Idealize.ShloMosaic Idealize.ShloMosaic.ValueIdx
open scoped BigOperators

/-- The comparison word of row `r` against column `c` is one exactly on the diagonal: both numbers are below
    2^32, so their 32-bit words are equal only when they are. -/
theorem cmp_diag (r c : Fin 8192) :
    IntOp.cmpi .eq (IntOp.addi (BitVec.ofNat 32 r.val) 0#32) (BitVec.ofNat 32 c.val) = if r = c then 1#1 else 0#1 := by
  by_cases h : r = c
  · rw [if_pos h, h]
    exact IntOp.cmpi_eq.mpr (BitVec.add_zero _)
  · rw [if_neg h]
    refine eq_zero_of_ne_one fun h1 => h ?_
    have h2 : BitVec.ofNat 32 r.val + 0#32 = BitVec.ofNat 32 c.val := IntOp.cmpi_eq.mp h1
    rw [BitVec.add_zero] at h2
    have h3 := congrArg BitVec.toNat h2
    rw [BitVec.toNat_ofNat, BitVec.toNat_ofNat] at h3
    have hr := r.isLt
    have hc := c.isLt
    exact Fin.ext (by omega)

/-- One less one is zero on the extended reals: both are real. -/
theorem one_sub_one : (1 : EReal) - 1 = 0 := by
  rw [← EReal.coe_one, ← EReal.coe_sub, sub_self, EReal.coe_zero]

/-- The factor one minus the comparison word read as a number: zero on the diagonal, one off it. -/
theorem off_diag (r c : Fin 8192) :
    (Ideal.ofBits .f32 0x3F800000#32 : EReal)
      - FloatOps.uitofp (F := Ideal) .f32 (IntOp.cmpi .eq (IntOp.addi (BitVec.ofNat 32 r.val) 0#32) (BitVec.ofNat 32 c.val))
      = if r = c then 0 else 1 := by
  rw [cmp_diag, Cert.Spec.ofBits_one]
  by_cases h : r = c
  · rw [if_pos h, if_pos h]
    show (1 : EReal) - (((1#1 : BitVec 1).toNat : ℝ) : EReal) = 0
    rw [show (1#1 : BitVec 1).toNat = 1 from rfl, Nat.cast_one, EReal.coe_one, one_sub_one]
  · rw [if_neg h, if_neg h]
    show (1 : EReal) - (((0#1 : BitVec 1).toNat : ℝ) : EReal) = 1
    rw [show (0#1 : BitVec 1).toNat = 0 from rfl, Nat.cast_zero, EReal.coe_zero, sub_zero]

/-- One entry of the exponentiated matrix: exp of the similarity of rows `r` and `c` times the off-diagonal factor,
    divided by one half. A product with zero is zero and a product with one is the other factor, for every extended
    real, the infinite ones included. -/
theorem elt (x0 x1 : (⟨S4096x256, .f32⟩ : BufTy).Contents (Elt Ideal)) (r c : Fin 8192) :
    val_main_v25 (F := Ideal) x0 x1 (ix2 r c)
      = Ideal.exp ((if r = c then 0 else Cert.Spec.sim (val_main_v5 (F := Ideal) x0 x1) r c) * Ideal.ofBits .f32 0x40000000#32) := by
  rw [val_main_v25_apply, val_main_v24_apply, val_main_v22_apply, val_main_v23_apply, val_main_cst_2_apply,
    val_main_v21_apply, val_main_v20_apply, val_main_cst_1_apply, val_main_v19_apply, val_main_v18_apply,
    val_main_v17_apply, val_main_v14_apply, val_main_v16_apply, val_main_c_apply, val_main_v15_apply, val_main_v7_apply]
  simp only [Ideal.hostUnary_exp_def, Ideal.hostDivf_def, Ideal.mulf_def, Ideal.subf_def, Ideal.ofBits_def]
  rw [Cert.Spec.div_half]
  refine congrArg (fun t => Ideal.exp (t * Ideal.ofBits .f32 0x40000000#32)) ?_
  refine (congrArg (_ * ·) (off_diag r c)).trans ?_
  by_cases h : r = c
  · rw [if_pos h, if_pos h, mul_zero]
  · rw [if_neg h, if_neg h, mul_one]
    unfold Cert.Spec.sim
    refine Finset.sum_congr rfl fun k _ => ?_
    rw [val_main_v6_apply]
    have el : lidx_main_v7 (ix2 r c) k = ix2 r k :=
      funext fun a => Fin.ext (by match a with | ⟨0, _⟩ => rfl | ⟨1, _⟩ => rfl)
    have er : idx_main_v6 (ridx_main_v7 (ix2 r c) k) = ix2 c k :=
      funext fun a => Fin.ext (by match a with | ⟨0, _⟩ => rfl | ⟨1, _⟩ => rfl)
    rw [el, er]

/-- Each row's sum, from the initial value zero, of the entries above is the row's denominator. -/
theorem ref_den (x0 x1 : (⟨S4096x256, .f32⟩ : BufTy).Contents (Elt Ideal)) :
    val_main_v26 (F := Ideal) x0 x1 = Cert.Spec.denV (val_main_v5 (F := Ideal) x0 x1) := by
  funext j
  rw [val_main_v26_apply, val_main_cst_3_apply, Ideal.ofBits_def, Cert.Spec.ofBits_zero, zero_add]
  show _ = Cert.Spec.den (val_main_v5 (F := Ideal) x0 x1) ⟨(j 0).val, (j 0).isLt⟩
  unfold Cert.Spec.den
  refine Finset.sum_congr rfl fun c _ => ?_
  have e : idx_main_v26 j c = ix2 ⟨(j 0).val, (j 0).isLt⟩ c :=
    funext fun a => Fin.ext (by match a with | ⟨0, _⟩ => rfl | ⟨1, _⟩ => rfl)
  rw [e]
  exact elt x0 x1 _ c

end Cert.RefDen

end
-- ==== Proof.KernelIdeal.Pos.lean ====
/-
  The kernel's positives: the row sums of the products of the matrix's two halves, repeated, are each row's similarity
  with the row half the matrix away.
-/
import proofs.«110532_j65867618451797_2_alg».proof.Proof.KernelIdeal.Value
import proofs.«110532_j65867618451797_2_alg».proof.Proof.Spec

noncomputable section

namespace Cert.KernelIdeal.Body

open Cert.KernelIdeal Cert.KernelIdeal.Gen
open Idealize.ShloMosaic Idealize.ShloMosaic.ValueIdx
open scoped BigOperators

/-- A row sum over the 256 columns, from the initial value zero, is the sum of the row's entries. -/
theorem rowsum_apply (y : FVec Ideal S4096x256 .f32) (r : Fin 4096) :
    Host.reduceAdd (F := Ideal) y (constant (F := Ideal) S_ .f32 0x00000000#32) reducesTo_S4096x256_S4096_d1 h_S_ (ix1 r)
      = ∑ k : Fin 256, y (ix2 r k) := by
  simp only [Host.reduceAdd, Ideal.hostReduceAdd_def]
  rw [Ideal.hostReduceAdd_single reducesTo_S4096x256_S4096_d1 (by decide)]
  rw [constant_apply, Cert.Spec.ofBits_zero, zero_add]
  refine Finset.sum_congr rfl fun k _ => ?_
  exact congrArg y (funext fun a => Fin.ext (by match a with | ⟨0, _⟩ => rfl | ⟨1, _⟩ => rfl))

/-- The first half of the rows at (q, k) is the matrix at (q, k). -/
theorem lo_apply (n : FVec Ideal S8192x256 .f32) (q : Nat) (hq : q < 4096) (k : Fin 256) :
    extractStridedSlice S4096x256 ![0, 0] n slices_S8192x256_S4096x256_0_0 (ix2 ⟨q, hq⟩ k)
      = n (ix2 ⟨q, by omega⟩ k) :=
  extractStridedSlice_apply _ n _ _ _ (fun a => by
    match a with
    | ⟨0, _⟩ => show q = 0 + q; omega
    | ⟨1, _⟩ => show k.val = 0 + k.val; omega)

/-- The second half of the rows at (q, k) is the matrix at (q + 4096, k). -/
theorem hi_apply (n : FVec Ideal S8192x256 .f32) (q : Nat) (hq : q < 4096) (k : Fin 256) :
    extractStridedSlice S4096x256 ![4096, 0] n slices_S8192x256_S4096x256_4096_0 (ix2 ⟨q, hq⟩ k)
      = n (ix2 ⟨q + 4096, by omega⟩ k) :=
  extractStridedSlice_apply _ n _ _ _ (fun a => by
    match a with
    | ⟨0, _⟩ => show q + 4096 = 4096 + q; omega
    | ⟨1, _⟩ => show k.val = 0 + k.val; omega)

/-- The positives of the first half of the rows: row q against row q + 4096. -/
def halfPos (n : FVec Ideal S8192x256 .f32) : FVec Ideal S4096 .f32 :=
  Host.reduceAdd (mulf (extractStridedSlice S4096x256 ![0, 0] n slices_S8192x256_S4096x256_0_0)
    (extractStridedSlice S4096x256 ![4096, 0] n slices_S8192x256_S4096x256_4096_0))
    (constant S_ .f32 0x00000000#32) reducesTo_S4096x256_S4096_d1 h_S_

/-- Entry q of them is the sum over the columns of the products of rows q and q + 4096. -/
theorem halfPos_apply (n : FVec Ideal S8192x256 .f32) (q : Nat) (hq : q < 4096) :
    halfPos n (ix1 ⟨q, hq⟩) = ∑ k : Fin 256, n (ix2 ⟨q, by omega⟩ k) * n (ix2 ⟨q + 4096, by omega⟩ k) := by
  unfold halfPos
  rw [rowsum_apply]
  refine Finset.sum_congr rfl fun k _ => ?_
  rw [mulf_apply, lo_apply, hi_apply]

/-- Row q of the first half has its partner 4096 rows below: its positive is that sum. -/
theorem pos_lo (n : FVec Ideal S8192x256 .f32) (q : Nat) (hq : q < 4096) :
    Cert.Spec.pos n ⟨q, by omega⟩ = ∑ k : Fin 256, n (ix2 ⟨q, by omega⟩ k) * n (ix2 ⟨q + 4096, by omega⟩ k) := by
  unfold Cert.Spec.pos Cert.Spec.sim
  have hp : Cert.Spec.partner ⟨q, by omega⟩ = ⟨q + 4096, by omega⟩ :=
    Fin.ext (by show (q + 4096) % 8192 = q + 4096; omega)
  rw [hp]

/-- Row q + 4096 of the second half has its partner 4096 rows above, row q: its positive is the same sum, the
    products commuted. -/
theorem pos_hi (n : FVec Ideal S8192x256 .f32) (q : Nat) (hq : q < 4096) :
    Cert.Spec.pos n ⟨q + 4096, by omega⟩ = ∑ k : Fin 256, n (ix2 ⟨q, by omega⟩ k) * n (ix2 ⟨q + 4096, by omega⟩ k) := by
  unfold Cert.Spec.pos Cert.Spec.sim
  have hp : Cert.Spec.partner ⟨q + 4096, by omega⟩ = ⟨q, by omega⟩ :=
    Fin.ext (by show (q + 4096 + 4096) % 8192 = q; omega)
  rw [hp]
  exact Finset.sum_congr rfl fun k _ => mul_comm _ _

/-- The kernel's positives are the rows' positives: a row of the first half reads entry q of the half-vector, a row
    q + 4096 of the second half reads the same entry. -/
theorem posK_eq (n : FVec Ideal S8192x256 .f32) : posK (F := Ideal) n = Cert.Spec.posV n := by
  funext j
  show concatenate S8192 0 [⟨S4096, halfPos n⟩, ⟨S4096, halfPos n⟩] concatenates_S4096_S4096_S8192_d0 j
    = Cert.Spec.pos n ⟨(j 0).val, (j 0).isLt⟩
  have hj : (j 0).val < 8192 := (j 0).isLt
  by_cases h : (j 0).val < 4096
  · rw [concatenate_pair_apply_left 0 (halfPos n) (halfPos n) concatenates_S4096_S4096_S8192_d0 j rfl (ix1 ⟨(j 0).val, h⟩)
      (fun b => by match b with | ⟨0, _⟩ => rfl)]
    exact (halfPos_apply n _ h).trans (pos_lo n _ h).symm
  · have hq : (j 0).val - 4096 < 4096 := by omega
    rw [concatenate_pair_apply_right 0 (halfPos n) (halfPos n) concatenates_S4096_S4096_S8192_d0 j rfl rfl
      (ix1 ⟨(j 0).val - 4096, hq⟩)
      (fun b hb => absurd (Fin.ext (Nat.lt_one_iff.mp b.isLt)) hb)
      (by show (j 0).val - 4096 + 4096 = (j 0).val; omega)]
    refine ((halfPos_apply n _ hq).trans (pos_hi n _ hq).symm).trans ?_
    exact congrArg (Cert.Spec.pos n) (Fin.ext (by show (j 0).val - 4096 + 4096 = (j 0).val; omega))

end Cert.KernelIdeal.Body

end
-- ==== Proof.Algebraic.lean ====
/-
  The two idealized programs end with equal results. Both are the mean over the 8192 rows of −log(exp(pos / 0.5) / den):
  the last ten operations are the same on both sides, so it is enough that the positives and the denominators agree,
  as functions of the normalized matrix, which both programs compute by the same twelve operations. The kernel's
  denominators are the specification's (Proof/KernelIdeal/Den.lean), its positives too (Proof/KernelIdeal/Pos.lean:
  one commutation under the sum); the reference's are as well (Proof/RefDen.lean: dividing by one half is doubling,
  and the factor 1 − [row = column] is 0 or 1; Proof/RefPos.lean: the two gathered diagonals). Over the extended reals
  the narrowing of the matrix's format before the kernel is the identity.
-/
import proofs.«110532_j65867618451797_2_alg».proof.Defs
import proofs.«110532_j65867618451797_2_alg».proof.Proof.Gen.KernelIdeal
import proofs.«110532_j65867618451797_2_alg».proof.Proof.Gen.ReferenceIdeal
import proofs.«110532_j65867618451797_2_alg».proof.Proof.Gen.Pre_finite_inputs
import proofs.«110532_j65867618451797_2_alg».proof.Proof.Gen.ReferenceIdeal.Run
import proofs.«110532_j65867618451797_2_alg».proof.Proof.Gen.ReferenceIdeal.Read
import proofs.«110532_j65867618451797_2_alg».proof.Proof.KernelIdeal.Den
import proofs.«110532_j65867618451797_2_alg».proof.Proof.RefPos
import proofs.«110532_j65867618451797_2_alg».proof.Proof.RefDen
import proofs.«110532_j65867618451797_2_alg».proof.Proof.KernelIdeal.Pos

set_option maxRecDepth 16384

noncomputable section

namespace Cert.Proof

open Idealize.ShloMosaic Idealize.ShloMosaic.TcCoe Idealize.SL.Sem
open Cert.KernelIdeal.Body

/-- The reference's result is the loss of its positives and its denominators: the same last ten operations as the
    kernel's. -/
theorem ref_loss (x0 x1 : (⟨Cert.ReferenceIdeal.S4096x256, .f32⟩ : BufTy).Contents (Elt Ideal)) :
    Cert.ReferenceIdeal.Read.val_main_v31 (F := Ideal) x0 x1
      = lossOf (F := Ideal) (Cert.ReferenceIdeal.Read.val_main_v10 (F := Ideal) x0 x1) (Cert.ReferenceIdeal.Read.val_main_v26 (F := Ideal) x0 x1) := rfl

/-- The reference's normalized matrix is the one the kernel's host operations compute. -/
theorem ref_norm (x0 x1 : (⟨Cert.ReferenceIdeal.S4096x256, .f32⟩ : BufTy).Contents (Elt Ideal)) :
    Cert.ReferenceIdeal.Read.val_main_v5 (F := Ideal) x0 x1 = normalize (F := Ideal) (rowsOf (F := Ideal) x0 x1) := rfl

/-- Over the extended reals the change of format is the identity: both input windows read the normalized matrix. -/
theorem n6_eq (m : (ℓ : Loc Cert.KernelIdeal.nD Cert.KernelIdeal.τ Cert.KernelIdeal.sig) → Buf (Elt Ideal) ℓ) (c : Dev Cert.KernelIdeal.nD) :
    n6 m c = V m c Cert.KernelIdeal.main_v5 := by
  show V m c Cert.KernelIdeal.main_v6 = _
  rw [V_v6, V_v5]
  rfl

/-- THE TWO RESULTS AGREE: from memories that agree on the arguments, the kernel's result buffer and the reference's hold
    the same extended real. -/
theorem value_eq (m : (ℓ : Loc Cert.KernelIdeal.nD Cert.KernelIdeal.τ Cert.KernelIdeal.sig) → Buf (Elt Ideal) ℓ) (c : Dev Cert.KernelIdeal.nD) :
    Cert.ReferenceIdeal.Read.val_main_v31 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = W2 m c (Proc.devRef .tc Cert.KernelIdeal.main_v21) := by
  rw [ref_loss, Cert.RefDen.ref_den, Cert.RefPos.ref_pos, ref_norm, result_eq, posK_eq, den_eq, n6_eq, V_v5]

theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' _ hagree
  refine ⟨fun c => W2 m c (Proc.devRef .tc Cert.KernelIdeal.main_v21), ?_, ?_⟩
  · exact (θ_run Cert.KernelIdeal.defs _ _).mono (fun _ h c =>
      ⟨(h c).2 Cert.KernelIdeal.main_v21 (by decide),
       ((h c).2 Cert.KernelIdeal.main_arg0 (by decide)).trans (W2_launch m c Cert.KernelIdeal.main_arg0 (by decide) (by decide) (by decide) (by decide) (by decide)),
       ((h c).2 Cert.KernelIdeal.main_arg1 (by decide)).trans (W2_launch m c Cert.KernelIdeal.main_arg1 (by decide) (by decide) (by decide) (by decide) (by decide))⟩)
      (run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, (hagree c).1, (hagree c).2]
    exact value_eq m c

end Cert.Proof

end
-- ==== Proof.lean ====
/- The two kernels' frames come from one run each of the launch with the accumulator tracked through the grid
   (Proof/Kernel/Run.lean at the word level, Proof/KernelIdeal/Run.lean over the extended reals: the same text, generic in
   the float instance); the reference's frame is its generated run with the result dropped; the ideal pass rewrote
   nothing, so there is nothing to preserve; and the two idealized programs' results are one function of the arguments
   (Proof/Algebraic.lean). -/
import proofs.«110532_j65867618451797_2_alg».proof.Defs
import proofs.«110532_j65867618451797_2_alg».proof.Proof.Gen.Kernel
import proofs.«110532_j65867618451797_2_alg».proof.Proof.Gen.Kernel.Skeleton
import proofs.«110532_j65867618451797_2_alg».proof.Proof.Gen.Kernel.Launch
import proofs.«110532_j65867618451797_2_alg».proof.Proof.Gen.Kernel.Points
import proofs.«110532_j65867618451797_2_alg».proof.Proof.Gen.KernelIdeal
import proofs.«110532_j65867618451797_2_alg».proof.Proof.Gen.KernelIdeal.Skeleton
import proofs.«110532_j65867618451797_2_alg».proof.Proof.Gen.KernelIdeal.Launch
import proofs.«110532_j65867618451797_2_alg».proof.Proof.Gen.KernelIdeal.Points
import proofs.«110532_j65867618451797_2_alg».proof.Proof.Gen.ReferenceIdeal
import proofs.«110532_j65867618451797_2_alg».proof.Proof.Gen.Pre_finite_inputs
import proofs.«110532_j65867618451797_2_alg».proof.Proof.Gen.ReferenceIdeal.Run
import proofs.«110532_j65867618451797_2_alg».proof.Proof.Gen.ReferenceIdeal.Read
import proofs.«110532_j65867618451797_2_alg».proof.Proof.Kernel.Run
import proofs.«110532_j65867618451797_2_alg».proof.Proof.KernelIdeal.Run
import proofs.«110532_j65867618451797_2_alg».proof.Proof.Algebraic
import Idealize.ShloMosaic.Adequacy
import Idealize.ShloMosaic.Init

noncomputable section

namespace Cert.Proof

open Idealize.ShloMosaic Idealize.SL.Sem Cert.Kernel

theorem frame_k : Cert.frame_Kernel (hKernel := Cert.Kernel.Gen.facts) (hPre_finite_inputs := Cert.Pre_finite_inputs.Gen.facts) :=
  fun m ρ _ => Cert.Kernel.Body.frame m ρ
theorem frame_ki : Cert.frame_KernelIdeal (hKernelIdeal := Cert.KernelIdeal.Gen.facts) (hPre_finite_inputs := Cert.Pre_finite_inputs.Gen.facts) :=
  fun m ρ _ => Cert.KernelIdeal.Body.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
